-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x768x1024 : Shape := ⟨4, ![32, 1, 768, 1024]⟩
abbrev S_ : Shape := ⟨0, ![]⟩

class Facts : Prop where
  bcast_S_S32x1x768x1024 : S_.BroadcastsInDim S32x1x768x1024 (![] : Fin 0 → Fin S32x1x768x1024.rank)
  reducesTo_S32x1x768x1024_S_d0_1_2_3 : S32x1x768x1024.ReducesTo [0, 1, 2, 3] S_
  h_S_ : 0 < S_.numel

variable [Facts]

def fn {F : FTy → Type} [FloatOps F] (main_arg0 : FVec F S32x1x768x1024 .f32) (main_arg1 : FVec F S32x1x768x1024 .f32) : IVec S_ 1 :=
  let main_v0 : FVec F S32x1x768x1024 .f32 := Host.absf main_arg0
  let main_cst : FVec F S_ .f32 := constant S_ .f32 0x7F800000#32
  let main_v1 : FVec F S32x1x768x1024 .f32 := broadcastInDim S32x1x768x1024 ![] bcast_S_S32x1x768x1024 main_cst
  let main_v2 : IVec S32x1x768x1024 1 := cmpf .olt main_v0 main_v1
  let main_c : IVec S_ 1 := constantI S_ 1 1#1
  let main_v3 : IVec S_ 1 := (fun x v => Host.reduce IntOp.andi x v reducesTo_S32x1x768x1024_S_d0_1_2_3 h_S_) main_v2 main_c
  let main_v4 : FVec F S32x1x768x1024 .f32 := Host.absf main_arg1
  let main_cst_0 : FVec F S_ .f32 := constant S_ .f32 0x7F800000#32
  let main_v5 : FVec F S32x1x768x1024 .f32 := broadcastInDim S32x1x768x1024 ![] bcast_S_S32x1x768x1024 main_cst_0
  let main_v6 : IVec S32x1x768x1024 1 := cmpf .olt main_v4 main_v5
  let main_c_1 : IVec S_ 1 := constantI S_ 1 1#1
  let main_v7 : IVec S_ 1 := (fun x v => Host.reduce IntOp.andi x v reducesTo_S32x1x768x1024_S_d0_1_2_3 h_S_) main_v6 main_c_1
  let main_v8 : IVec S_ 1 := andi main_v3 main_v7
  main_v8
-- ==== Kernel.lean ====
abbrev S32x1x768x1024 : Shape := ⟨4, ![32, 1, 768, 1024]⟩
abbrev S24576x1024 : Shape := ⟨2, ![24576, 1024]⟩
abbrev S16x128 : Shape := ⟨2, ![16, 128]⟩
abbrev S1024x1024 : Shape := ⟨2, ![1024, 1024]⟩
abbrev S8x128 : Shape := ⟨2, ![8, 128]⟩
abbrev S1x1024x1024 : Shape := ⟨3, ![1, 1024, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 36
  | .vmem => 16
  | .smem => 0
  | _ => 0

abbrev bufTy : (tb : Table) → Fin (tcTables nBuf tb) → BufTy
  | .hbm, ⟨0, _⟩ => ⟨S32x1x768x1024, .f32⟩
  | .hbm, ⟨1, _⟩ => ⟨S32x1x768x1024, .f32⟩
  | .hbm, ⟨2, _⟩ => ⟨S24576x1024, .f32⟩
  | .hbm, ⟨3, _⟩ => ⟨S24576x1024, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S32x1x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 12], ![false, false]⟩

def k0_cond2 (i : grid0.Coords) : BitVec 1 :=
  let arg1 : BitVec 32 := BitVec.ofNat 32 (i 1).val
  let c11_i32 : BitVec 32 := 11#32
  let v69 : BitVec 1 := Scalar.cmpi .eq arg1 c11_i32
  let v70 : BitVec 32 := Scalar.extui v69
  let c0_i32_29 : BitVec 32 := 0#32
  let v71 : BitVec 1 := Scalar.cmpi .ne v70 c0_i32_29
  v71

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S32x1x768x1024_S24576x1024 : S32x1x768x1024.ShapeCasts S24576x1024
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S24576x1024.size a
  hwx0_0 : ∀ i : grid0.Coords, EltTy.bits .f32 = 32 ∨ (Rect.block (s := S24576x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S24576x1024.size a
  hwx0_1 : ∀ i : grid0.Coords, EltTy.bits .f32 = 32 ∨ (Rect.block (s := S24576x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x1x768x1024 : Shape := ⟨4, ![32, 1, 768, 1024]⟩
abbrev S32x768x1024x1 : Shape := ⟨4, ![32, 768, 1024, 1]⟩
abbrev S25165824 : Shape := ⟨1, ![25165824]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S32x1x768x1024, .f32⟩
  | .hbm, ⟨1, _⟩ => ⟨S32x1x768x1024, .f32⟩
  | .hbm, ⟨2, _⟩ => ⟨S32x768x1024x1, .f32⟩
  | .hbm, ⟨3, _⟩ => ⟨S25165824, .f32⟩
  | .hbm, ⟨4, _⟩ => ⟨S32x768x1024x1, .f32⟩
  | .hbm, ⟨5, _⟩ => ⟨S25165824, .f32⟩
  | .hbm, ⟨6, _⟩ => ⟨S_, .f32⟩
  | .hbm, ⟨7, _⟩ => ⟨S25165824, .f32⟩
  | .hbm, ⟨8, _⟩ => ⟨S25165824, .i1⟩
  | .hbm, ⟨9, _⟩ => ⟨S_, .f32⟩
  | .hbm, ⟨10, _⟩ => ⟨S25165824, .f32⟩
  | .hbm, ⟨11, _⟩ => ⟨S25165824, .i1⟩
  | .hbm, ⟨12, _⟩ => ⟨S25165824, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S25165824, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S25165824, .f32⟩
  | .hbm, ⟨26, _⟩ => ⟨S25165824, .f32⟩
  | .hbm, ⟨27, _⟩ => ⟨S25165824, .f32⟩
  | .hbm, ⟨28, _⟩ => ⟨S25165824, .f32⟩
  | .hbm, ⟨29, _⟩ => ⟨S25165824, .f32⟩
  | .hbm, ⟨30, _⟩ => ⟨S_, .f32⟩
  | .hbm, ⟨31, _⟩ => ⟨S25165824, .f32⟩
  | .hbm, ⟨32, _⟩ => ⟨S25165824, .f32⟩
  | .hbm, ⟨33, _⟩ => ⟨S25165824, .f32⟩
  | .hbm, ⟨34, _⟩ => ⟨S25165824, .f32⟩
  | .hbm, ⟨35, _⟩ => ⟨S25165824, .f32⟩
  | .hbm, ⟨36, _⟩ => ⟨S25165824, .f32⟩
  | .hbm, ⟨37, _⟩ => ⟨S25165824, .f32⟩
  | .hbm, ⟨38, _⟩ => ⟨S25165824, .f32⟩
  | .hbm, ⟨39, _⟩ => ⟨S25165824, .f32⟩
  | .hbm, ⟨40, _⟩ => ⟨S25165824, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S32x1x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_call1_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  transposes_S32x1x768x1024_S32x768x1024x1_0_2_3_1 : S32x1x768x1024.Transposes [0, 2, 3, 1] S32x768x1024x1
  shapeCasts_S32x768x1024x1_S25165824 : S32x768x1024x1.ShapeCasts S25165824
  bcast_S_S25165824 : S_.BroadcastsInDim S25165824 (![] : Fin 0 → Fin S25165824.rank)
  natLt_1_32 : 1 < 32
  reducesTo_S25165824_S_d0 : S25165824.ReducesTo [0] S_
  h_S_ : 0 < S_.numel

variable [Facts₀]

class Facts : Prop extends Facts₀ where

variable [Facts]
-- ==== Proof.Pieces.lean ====
import proofs.«158789_j87651692577051_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
# What each control case leaves in the four running tiles and the four output tiles

The body has three control cases: the first step of a core's sweep (reset the running tiles, then add), a
middle step (add), and the last step (add, then copy each running tile to its output tile). The frame run
records what each case stores as lists of pieces; here each list is read back as ONE value: the payload of
the last store, with each load of a tile the case has already stored into read as that earlier payload.
-/

namespace Cert.KernelIdeal.Val

open Cert.KernelIdeal Cert.KernelIdeal.Gen

variable {F : FTy → Type} [FloatOps F]
variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole)

theorem hz : (![0, 0] : Fin 2 → Nat) = fun _ => 0 := funext fun a => by fin_cases a <;> rfl

section caseA
variable (hc0 : cond0_0 i) (hc1 : ¬cond0_1 i) (x0 x1 : Vec F S1024x1024 .f32)

/-- First step of a sweep, running tile 0: the reset value, then one update. -/
theorem sA0 : sout0_A_0 c i arg2 harg2 arg3 harg3 arg4 harg4 arg5 harg5 arg6 harg6 arg7 harg7 arg8 harg8 arg9 harg9 arg10 harg10 arg11 harg11 hc0 hc1 x0 x1 = k0_pay1 (k0_pay13 x1) k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

/-- First step of a sweep, running tile 1: the reset value, then one update. -/
theorem sA1 : sout0_A_1 c i arg2 harg2 arg3 harg3 arg4 harg4 arg5 harg5 arg6 harg6 arg7 harg7 arg8 harg8 arg9 harg9 arg10 harg10 arg11 harg11 hc0 hc1 x0 x1 = k0_pay2 (k0_pay14 x1) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

/-- First step of a sweep, running tile 2: the reset value, then one update. -/
theorem sA2 : sout0_A_2 c i arg2 harg2 arg3 harg3 arg4 harg4 arg5 harg5 arg6 harg6 arg7 harg7 arg8 harg8 arg9 harg9 arg10 harg10 arg11 harg11 hc0 hc1 x0 x1 = k0_pay3 (k0_pay15 x0 x1) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

/-- First step of a sweep, running tile 3: the reset value, then one update. -/
theorem sA3 : sout0_A_3 c i arg2 harg2 arg3 harg3 arg4 harg4 arg5 harg5 arg6 harg6 arg7 harg7 arg8 harg8 arg9 harg9 arg10 harg10 arg11 harg11 hc0 hc1 x0 x1 = k0_pay4 (k0_pay16 x0 x1) k0_pay8 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

end caseA

section caseB
variable (hc0 : ¬cond0_0 i) (hc1 : ¬cond0_1 i) (x0 x1 : Vec F S1024x1024 .f32) (xs0 xs1 xs2 xs3 : Vec F S8x128 .f32)

/-- A middle step, running tile 0: one update of what the step before left. -/
theorem sB0 : sout0_B_0 c i arg2 harg2 arg3 harg3 arg4 harg4 arg5 harg5 arg6 harg6 arg7 harg7 arg8 harg8 arg9 harg9 arg10 harg10 arg11 harg11 hc0 hc1 x0 x1 xs0 xs1 xs2 xs3 = k0_pay1 (k0_pay13 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

/-- A middle step, running tile 1: one update of what the step before left. -/
theorem sB1 : sout0_B_1 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay14 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

/-- A middle step, running tile 2: one update of what the step before left. -/
theorem sB2 : sout0_B_2 c i arg2 harg2 arg3 harg3 arg4 harg4 arg5 harg5 arg6 harg6 arg7 harg7 arg8 harg8 arg9 harg9 arg10 harg10 arg11 harg11 hc0 hc1 x0 x1 xs0 xs1 xs2 xs3 = k0_pay3 (k0_pay15 x0 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

/-- A middle step, running tile 3: one update of what the step before left. -/
theorem sB3 : sout0_B_3 c i arg2 harg2 arg3 harg3 arg4 harg4 arg5 harg5 arg6 harg6 arg7 harg7 arg8 harg8 arg9 harg9 arg10 harg10 arg11 harg11 hc0 hc1 x0 x1 xs0 xs1 xs2 xs3 = k0_pay4 (k0_pay16 x0 x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

end caseB

section caseC
variable (hc0 : ¬cond0_0 i) (hc1 : cond0_1 i) (x0 x1 : Vec F S1024x1024 .f32) (xs0 xs1 xs2 xs3 : Vec F S8x128 .f32)

/-- The last step, running tile 0: one update of what the step before left. -/
theorem sC0 : sout0_C_0 c i arg2 harg2 arg3 harg3 arg4 harg4 arg5 harg5 arg6 harg6 arg7 harg7 arg8 harg8 arg9 harg9 arg10 harg10 arg11 harg11 hc0 hc1 x0 x1 xs0 xs1 xs2 xs3 = k0_pay1 (k0_pay13 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

/-- The last step, output tile 2: a copy of the updated running tile 0. -/
theorem oC2 : out0_C_2 c i arg2 harg2 arg3 harg3 arg4 harg4 arg5 harg5 arg6 harg6 arg7 harg7 arg8 harg8 arg9 harg9 arg10 harg10 arg11 harg11 hc0 hc1 x0 x1 xs0 xs1 xs2 xs3 = k0_pay1 (k0_pay13 x1) xs0 := by
  unfold out0_C_2
  rw [View.read_writes_eq_canon _ _ _ (cover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

/-- The last step, running tile 1: one update of what the step before left. -/
theorem sC1 : sout0_C_1 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay14 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

/-- The last step, output tile 3: a copy of the updated running tile 1. -/
theorem oC3 : out0_C_3 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay14 x1) xs1 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

/-- The last step, running tile 2: one update of what the step before left. -/
theorem sC2 : sout0_C_2 c i arg2 harg2 arg3 harg3 arg4 harg4 arg5 harg5 arg6 harg6 arg7 harg7 arg8 harg8 arg9 harg9 arg10 harg10 arg11 harg11 hc0 hc1 x0 x1 xs0 xs1 xs2 xs3 = k0_pay3 (k0_pay15 x0 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

/-- The last step, output tile 4: a copy of the updated running tile 2. -/
theorem oC4 : out0_C_4 c i arg2 harg2 arg3 harg3 arg4 harg4 arg5 harg5 arg6 harg6 arg7 harg7 arg8 harg8 arg9 harg9 arg10 harg10 arg11 harg11 hc0 hc1 x0 x1 xs0 xs1 xs2 xs3 = k0_pay3 (k0_pay15 x0 x1) xs2 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

/-- The last step, running tile 3: one update of what the step before left. -/
theorem sC3 : sout0_C_3 c i arg2 harg2 arg3 harg3 arg4 harg4 arg5 harg5 arg6 harg6 arg7 harg7 arg8 harg8 arg9 harg9 arg10 harg10 arg11 harg11 hc0 hc1 x0 x1 xs0 xs1 xs2 xs3 = k0_pay4 (k0_pay16 x0 x1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  simp only [View.readAt_eq_ld, harg2.read_unread, harg3.read_unread, harg8.read_unread, harg9.read_unread, harg10.read_unread, harg11.read_unread, View.ld_unit_zero (S := S8x128) hz, View.ld_unit_zero (S := S1024x1024) hz]

/-- The last step, output tile 5: a copy of the updated running tile 3. -/
theorem oC5 : out0_C_5 c i arg2 harg2 arg3 harg3 arg4 harg4 arg5 harg5 arg6 harg6 arg7 harg7 arg8 harg8 arg9 harg9 arg10 harg10 arg11 harg11 hc0 hc1 x0 x1 xs0 xs1 xs2 xs3 = k0_pay4 (k0_pay16 x0 x1) xs3 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S8x128) _ hz]
  simp only [View.readAt_eq_ld, harg2.read_unread, harg3.read_unread, harg8.read_unread, harg9.read_unread, harg10.read_unread, harg11.read_unread, View.ld_unit_zero (S := S8x128) hz, View.ld_unit_zero (S := S1024x1024) hz]

end caseC

end Cert.KernelIdeal.Val

end
-- ==== Proof.Spec.lean ====
import Idealize.ShloMosaic.PureOps.Ideal
import Idealize.ShloMosaic.PureOps.Ideal.Laws

/-!
# The weighted binary cross-entropy, as one function of the two argument arrays

Over any finite index type `ι` and arrays `X T : ι → EReal` (logits and class labels), with two
distinguished label values `c₁` ("positive") and `c₀` ("negative") and a divisor `d`:

* `bce x t = max x 0 - x·t + log (1 + exp (0 - |x|))`, the stable loss of one element;
* `cnt c T` is the number of elements labelled `c`; `msum c X T` the sum of the losses of those elements;
* the kernel's value weights the two masked sums AFTER summing,
  `(cnt c₀ / (cnt c₁ + cnt c₀)) · msum c₁ + (cnt c₁ / (cnt c₁ + cnt c₀)) · msum c₀`, over `d`;
* the reference's value weights each element BEFORE summing, `∑ wt j · bce j`, over `d`.

The two are joined by distributivity of a real factor over a sum of reals (Algebra.lean).
-/

noncomputable section

namespace Cert.Spec

open Idealize.ShloMosaic

variable {ι : Type*} [Fintype ι]

/-- The numerically stable binary cross-entropy with logits of one element. -/
def bce (x t : EReal) : EReal := max x 0 - x * t + Ideal.log1p (Ideal.exp (0 - max x (-x)))

/-- How many elements carry the label `c`, as an extended real. -/
def cnt (c : EReal) (T : ι → EReal) : EReal := ∑ j, if T j = c then (1 : EReal) else 0

/-- The sum of the losses of the elements labelled `c`. -/
def msum (c : EReal) (X T : ι → EReal) : EReal := ∑ j, if T j = c then bce (X j) (T j) else 0

/-- Masked sums first, class weights after. -/
def kernelVal (c₁ c₀ d : EReal) (X T : ι → EReal) : EReal :=
  Ideal.div (Ideal.div (cnt c₀ T) (cnt c₁ T + cnt c₀ T) * msum c₁ X T
    + Ideal.div (cnt c₁ T) (cnt c₁ T + cnt c₀ T) * msum c₀ X T) d

/-- The class weight of element `j`: the other class's share for a labelled element, zero for an ignored one. -/
def wt (c₁ c₀ : EReal) (T : ι → EReal) (j : ι) : EReal :=
  if T j = c₁ then Ideal.div (cnt c₀ T) (cnt c₁ T + cnt c₀ T)
  else if T j = c₀ then Ideal.div (cnt c₁ T) (cnt c₁ T + cnt c₀ T) else 0

/-- Class weights first, one sum after. -/
def refVal (c₁ c₀ d : EReal) (X T : ι → EReal) : EReal :=
  Ideal.div (∑ j, wt c₁ c₀ T j * bce (X j) (T j)) d

/-! ## One element of the printed comparison chains -/

/-- An equality test widened to an integer and read as a float is the indicator of the equality. -/
theorem ind_eq (t c : EReal) :
    ((((Ideal.cmp .oeq t c).setWidth 32).toInt : ℝ) : EReal) = if t = c then 1 else 0 := by
  by_cases h : t = c
  · simp [Ideal.cmp, h]
  · simp [Ideal.cmp, h]

/-- A select on an equality test is the `if` on the equality. -/
theorem select_eq {α : Type} (t c : EReal) (a b : α) :
    Scalar.select (Ideal.cmp .oeq t c) a b = if t = c then a else b := by
  by_cases h : t = c
  · simp [Ideal.cmp, Scalar.select, h]
  · simp [Ideal.cmp, Scalar.select, h]

end Cert.Spec

end
-- ==== Proof.Payloads.lean ====
import proofs.«158789_j87651692577051_2_alg».proof.Proof.Gen.KernelIdeal.Skeleton
import proofs.«158789_j87651692577051_2_alg».proof.Proof.Spec
import Idealize.ShloMosaic.Lib.ValueIdx
import Idealize.ShloMosaic.Lib.Pipeline.Value
import Idealize.ShloMosaic.PureOps.Ideal.Laws

/-!
# The body's arithmetic, read at the extended reals

One grid point sees a 1024 × 1024 block of logits `x0` and of labels `x1`. The body forms four block totals —
how many labels are 1, how many are 0, the summed loss of the elements labelled 1, the summed loss of those
labelled 0 — and adds each, splat over an 8 × 128 tile, to a running tile. Here each total is shown to be the
plain sum over the block of a per-element term (`elem j`), and each running tile's update to be
"old entry + block total".
-/

noncomputable section

open Idealize.ShloMosaic

namespace Cert.KernelIdeal.Val

open Cert.KernelIdeal Cert.KernelIdeal.Gen Cert.Spec

/-- The label value of the positive class, as the body's constant spells it. -/
abbrev one : EReal := Ideal.ofBits .f32 0x3F800000#32

/-- The four per-element terms: the indicator of label 1, of label 0, the loss masked to label 1, to label 0. -/
def elem : Fin 4 → EReal → EReal → EReal
  | 0, _, t => if t = one then 1 else 0
  | 1, _, t => if t = 0 then 1 else 0
  | 2, x, t => if t = one then bce x t else 0
  | 3, x, t => if t = 0 then bce x t else 0

theorem elem_zero (x t : EReal) : elem 0 x t = if t = one then 1 else 0 := rfl
theorem elem_one (x t : EReal) : elem 1 x t = if t = 0 then 1 else 0 := rfl
theorem elem_two (x t : EReal) : elem 2 x t = if t = one then bce x t else 0 := rfl
theorem elem_three (x t : EReal) : elem 3 x t = if t = 0 then bce x t else 0 := rfl

/-- The total of term `j` over one block. -/
def bsum (j : Fin 4) (x0 x1 : S1024x1024.Idx → EReal) : EReal := ∑ k, elem j (x0 k) (x1 k)

/-- A block recast with a leading unit axis and reduced over its two long axes, then read at its one entry,
    is the sum of the block's entries: the recast only renames indices (a bijection), and a reduction onto
    unit axes is the total sum. -/
theorem red_total (v : FVec Ideal S1024x1024 .f32) :
    extractAt ![0, 0, 0] (shapeCast S1x1x1 (multiReduction .add [1, 2] S1
        (shapeCast S1x1024x1024 v shapeCasts_S1024x1024_S1x1024x1024) 0x00000000#32
        reduces_S1x1024x1024_S1 (.inl rfl) rfl) shapeCasts_S1_S1x1x1) inpos_S1x1x1_p0_0_0 = ∑ k, v k := by
  unfold extractAt
  unfold shapeCast
  refine (Ideal.multiReduction_add_total _ _ reduces_S1x1024x1024_S1 (fun b => by fin_cases b; rfl) _ _ _).trans ?_
  exact Equiv.sum_comp (Shape.reshapeEquiv shapeCasts_S1024x1024_S1x1024x1024) v

/-- One element's loss, as the body computes it. -/
theorem pay12_apply (x0 x1 : Vec Ideal S1024x1024 .f32) (k : S1024x1024.Idx) :
    k0_pay12 (F := Ideal) x0 x1 k = bce (x0 k) (x1 k) := by
  unfold k0_pay12 k0_pay9
  rw [shapeCast_self, shapeCast_self]
  show max (x0 k) (Ideal.ofBits .f32 0x00000000#32) - x0 k * x1 k
      + Ideal.log1p (Ideal.exp (Ideal.ofBits .f32 0x00000000#32 - max (x0 k) (-(x0 k)))) = _
  rw [Ideal.ofBits_zero_f32]
  rfl

/-- The count of labels equal to 1 in a block. -/
theorem pay13_eq (x0 x1 : Vec Ideal S1024x1024 .f32) : k0_pay13 (F := Ideal) x1 = bsum 0 x0 x1 := by
  unfold k0_pay13
  refine (red_total _).trans (Finset.sum_congr rfl fun k _ => ?_)
  unfold k0_pay10 k0_pay9
  rw [shapeCast_self]
  exact ind_eq (x1 k) one

/-- The count of labels equal to 0 in a block. -/
theorem pay14_eq (x0 x1 : Vec Ideal S1024x1024 .f32) : k0_pay14 (F := Ideal) x1 = bsum 1 x0 x1 := by
  unfold k0_pay14
  refine (red_total _).trans (Finset.sum_congr rfl fun k _ => ?_)
  unfold k0_pay11 k0_pay9
  rw [shapeCast_self]
  refine (ind_eq (x1 k) (Ideal.ofBits .f32 0x00000000#32)).trans ?_
  rw [Ideal.ofBits_zero_f32]
  rfl

/-- The summed loss of the elements labelled 1 in a block. -/
theorem pay15_eq (x0 x1 : Vec Ideal S1024x1024 .f32) : k0_pay15 (F := Ideal) x0 x1 = bsum 2 x0 x1 := by
  unfold k0_pay15
  refine (red_total _).trans (Finset.sum_congr rfl fun k _ => ?_)
  unfold k0_pay10 k0_pay9
  rw [shapeCast_self]
  refine (select_eq (x1 k) one (k0_pay12 (F := Ideal) x0 x1 k) (Ideal.ofBits .f32 0x00000000#32)).trans ?_
  rw [pay12_apply, Ideal.ofBits_zero_f32]
  rfl

/-- A running tile updated by a splat scalar: each entry grows by the scalar. -/
theorem pay1_apply (s : EReal) (xs : Vec Ideal S8x128 .f32) (y : S8x128.Idx) :
    k0_pay1 (F := Ideal) s xs y = xs y + s := by
  unfold k0_pay1; rw [shapeCast_self]; rfl
theorem pay2_apply (s : EReal) (xs : Vec Ideal S8x128 .f32) (y : S8x128.Idx) :
    k0_pay2 (F := Ideal) s xs y = xs y + s := by
  unfold k0_pay2; rw [shapeCast_self]; rfl
theorem pay3_apply (s : EReal) (xs : Vec Ideal S8x128 .f32) (y : S8x128.Idx) :
    k0_pay3 (F := Ideal) s xs y = xs y + s := by
  unfold k0_pay3; rw [shapeCast_self]; rfl

/-- A running tile updated by a splat scalar, the scalar a variable: each entry grows by it. -/
theorem upd (s : EReal) (xs : Vec Ideal S8x128 .f32) (y : S8x128.Idx) :
    shapeCast S8x128 (addf (F := Ideal) (φ := .f32) xs (broadcast S8x128 s)) shapeCasts_S8x128_S8x128 y = xs y + s := by
  rw [shapeCast_self]; rfl

/-- The fourth running tile grows by the summed loss of the elements labelled 0. -/
theorem pay4_apply (x0 x1 : Vec Ideal S1024x1024 .f32) (xs : Vec Ideal S8x128 .f32) (y : S8x128.Idx) :
    k0_pay4 (F := Ideal) (k0_pay16 x0 x1) xs y = xs y + bsum 3 x0 x1 := by
  unfold k0_pay4 k0_pay16
  refine (upd _ xs y).trans (congrArg (xs y + ·) ?_)
  refine (red_total _).trans (Finset.sum_congr rfl fun k _ => ?_)
  unfold k0_pay11 k0_pay9
  rw [shapeCast_self]
  refine (select_eq (x1 k) (Ideal.ofBits .f32 0x00000000#32) (k0_pay12 (F := Ideal) x0 x1 k) (Ideal.ofBits .f32 0x00000000#32)).trans ?_
  rw [pay12_apply, Ideal.ofBits_zero_f32]
  rfl

/-- The reset tiles are zero at every entry. -/
theorem pay5_apply (y : S8x128.Idx) : k0_pay5 (F := Ideal) y = 0 := by
  unfold k0_pay5; rw [shapeCast_self]; exact Ideal.ofBits_zero_f32
theorem pay6_apply (y : S8x128.Idx) : k0_pay6 (F := Ideal) y = 0 := by
  unfold k0_pay6; rw [shapeCast_self]; exact Ideal.ofBits_zero_f32
theorem pay7_apply (y : S8x128.Idx) : k0_pay7 (F := Ideal) y = 0 := by
  unfold k0_pay7; rw [shapeCast_self]; exact Ideal.ofBits_zero_f32
theorem pay8_apply (y : S8x128.Idx) : k0_pay8 (F := Ideal) y = 0 := by
  unfold k0_pay8; rw [shapeCast_self]; exact Ideal.ofBits_zero_f32

end Cert.KernelIdeal.Val

end
-- ==== Proof.Accum.lean ====
import proofs.«158789_j87651692577051_2_alg».proof.Proof.Pieces
import proofs.«158789_j87651692577051_2_alg».proof.Proof.Payloads

/-!
# The running tiles are running sums of block totals

After grid point `n` every entry of running tile `j` is `acc j n`: the block total of term `j` at point `n`,
added to `0` at the first step of a core's sweep (`n ≡ 0 mod 12`) and to `acc j (n-1)` otherwise. At the last
step of a sweep (`n ≡ 11 mod 12`) output tile `j` is a copy of it. By induction on the point.
-/

set_option maxRecDepth 16384

noncomputable section

open Idealize.ShloMosaic Idealize.ShloMosaic.TcCoe Idealize.SL.Sem

namespace Cert.KernelIdeal.Val

open Cert.KernelIdeal Cert.KernelIdeal.Gen Cert.Spec

/-- An 8 × 128 tile of extended reals. -/
abbrev Tile := Vec Ideal S8x128 .f32

/-- Four tiles, each constant. -/
def tiles (a : Fin 4 → EReal) : Tile × Tile × Tile × Tile := (fun _ => a 0, fun _ => a 1, fun _ => a 2, fun _ => a 3)

section steps
variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole)
variable (x0 x1 : Vec Ideal S1024x1024 .f32)

/-- First step of a sweep: every running tile is `0 +` its block total. -/
theorem stepA (hc0 : cond0_0 i) (hc1 : ¬cond0_1 i) :
    (sout0_A_0 c i arg2 harg2 arg3 harg3 arg4 harg4 arg5 harg5 arg6 harg6 arg7 harg7 arg8 harg8 arg9 harg9 arg10 harg10 arg11 harg11 hc0 hc1 x0 x1, sout0_A_1 c i arg2 harg2 arg3 harg3 arg4 harg4 arg5 harg5 arg6 harg6 arg7 harg7 arg8 harg8 arg9 harg9 arg10 harg10 arg11 harg11 hc0 hc1 x0 x1, sout0_A_2 c i arg2 harg2 arg3 harg3 arg4 harg4 arg5 harg5 arg6 harg6 arg7 harg7 arg8 harg8 arg9 harg9 arg10 harg10 arg11 harg11 hc0 hc1 x0 x1, sout0_A_3 c i arg2 harg2 arg3 harg3 arg4 harg4 arg5 harg5 arg6 harg6 arg7 harg7 arg8 harg8 arg9 harg9 arg10 harg10 arg11 harg11 hc0 hc1 x0 x1)
      = tiles fun j => 0 + bsum j x0 x1 := by
  unfold tiles
  rw [sA0, sA1, sA2, sA3]
  refine congrArg₂ Prod.mk (funext fun y => ?_) (congrArg₂ Prod.mk (funext fun y => ?_) (congrArg₂ Prod.mk (funext fun y => ?_) (funext fun y => ?_)))
  · rw [pay1_apply, pay5_apply, pay13_eq x0 x1]
  · rw [pay2_apply, pay6_apply, pay14_eq x0 x1]
  · rw [pay3_apply, pay7_apply, pay15_eq x0 x1]
  · rw [pay4_apply, pay8_apply]

/-- A middle step: every running tile grows by its block total. -/
theorem stepB (hc0 : ¬cond0_0 i) (hc1 : ¬cond0_1 i) (a : Fin 4 → EReal) :
    (sout0_B_0 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), sout0_B_1 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), sout0_B_2 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), sout0_B_3 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3))
      = tiles fun j => a j + bsum j x0 x1 := by
  unfold tiles
  rw [sB0, sB1, sB2, sB3]
  refine congrArg₂ Prod.mk (funext fun y => ?_) (congrArg₂ Prod.mk (funext fun y => ?_) (congrArg₂ Prod.mk (funext fun y => ?_) (funext fun y => ?_)))
  · rw [pay1_apply, pay13_eq x0 x1]
  · rw [pay2_apply, pay14_eq x0 x1]
  · rw [pay3_apply, pay15_eq x0 x1]
  · rw [pay4_apply]

/-- The last step: every running tile grows by its block total, -/
theorem stepC (hc0 : ¬cond0_0 i) (hc1 : cond0_1 i) (a : Fin 4 → EReal) :
    (sout0_C_0 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), sout0_C_1 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), sout0_C_2 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), sout0_C_3 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3))
      = tiles fun j => a j + bsum j x0 x1 := by
  unfold tiles
  rw [sC0, sC1, sC2, sC3]
  refine congrArg₂ Prod.mk (funext fun y => ?_) (congrArg₂ Prod.mk (funext fun y => ?_) (congrArg₂ Prod.mk (funext fun y => ?_) (funext fun y => ?_)))
  · rw [pay1_apply, pay13_eq x0 x1]
  · rw [pay2_apply, pay14_eq x0 x1]
  · rw [pay3_apply, pay15_eq x0 x1]
  · rw [pay4_apply]

/-- and every output tile is a copy of the updated running tile. -/
theorem stepC_out (hc0 : ¬cond0_0 i) (hc1 : cond0_1 i) (a : Fin 4 → EReal) :
    (out0_C_2 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), out0_C_3 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), out0_C_4 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3), out0_C_5 c i arg2 harg2 arg3 harg3 arg4 harg4 arg5 harg5 arg6 harg6 arg7 harg7 arg8 harg8 arg9 harg9 arg10 harg10 arg11 harg11 hc0 hc1 x0 x1 (fun _ => a 0) (fun _ => a 1) (fun _ => a 2) (fun _ => a 3))
      = tiles fun j => a j + bsum j x0 x1 := by
  unfold tiles
  rw [oC2, oC3, oC4, oC5]
  refine congrArg₂ Prod.mk (funext fun y => ?_) (congrArg₂ Prod.mk (funext fun y => ?_) (congrArg₂ Prod.mk (funext fun y => ?_) (funext fun y => ?_)))
  · rw [pay1_apply, pay13_eq x0 x1]
  · rw [pay2_apply, pay14_eq x0 x1]
  · rw [pay3_apply, pay15_eq x0 x1]
  · rw [pay4_apply]

end steps

variable (m : (ℓ : Loc nD τ sig) → Buf (Elt Ideal) ℓ) (c : Dev nD)

/-- The block total of term `j` at grid point `t`: over the blocks of logits and labels the point sees. -/
def bs (j : Fin 4) (t : Fin cfg0.N) : EReal :=
  bsum j (iblk m c 0 t : Vec Ideal S1024x1024 .f32) (iblk m c 1 t : Vec Ideal S1024x1024 .f32)

/-- The running sum after point `n`: restarted from `0` at the first step of each sweep of twelve. -/
def acc (j : Fin 4) : (n : ℕ) → n < cfg0.N → EReal
  | 0, h => 0 + bs m c j ⟨0, h⟩
  | n + 1, h => (if (n + 1) % 12 = 0 then 0 else acc j n (Nat.lt_of_succ_lt h)) + bs m c j ⟨n + 1, h⟩

/-- The running tiles after point `t`, the four last components of the frame's record. -/
abbrev carried (n : ℕ) (h : n < cfg0.N) : Tile × Tile × Tile × Tile := (outsAt0 m c n h).2.2.2.2

theorem atA (t : Fin cfg0.N) (h0 : t.val % 12 = 0) (h1 : ¬t.val % 12 = 11) :
    carried m c t.val t.isLt = tiles fun j => 0 + bs m c j t := by
  unfold carried
  rw [outsAt0_A m c t h0 h1]
  exact stepA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) _ _

theorem atB (t : Fin cfg0.N) (h0 : ¬t.val % 12 = 0) (h1 : ¬t.val % 12 = 11) (a : Fin 4 → EReal)
    (hp : carried m c (t.val - 1) (Nat.lt_of_le_of_lt (Nat.sub_le _ _) t.isLt) = tiles a) :
    carried m c t.val t.isLt = tiles fun j => a j + bs m c j t := by
  unfold carried at hp ⊢
  rw [outsAt0_B m c t h0 h1]
  dsimp only
  rw [hp]
  exact stepB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) _ _ a

theorem atC (t : Fin cfg0.N) (h0 : ¬t.val % 12 = 0) (h1 : t.val % 12 = 11) (a : Fin 4 → EReal)
    (hp : carried m c (t.val - 1) (Nat.lt_of_le_of_lt (Nat.sub_le _ _) t.isLt) = tiles a) :
    carried m c t.val t.isLt = tiles fun j => a j + bs m c j t := by
  unfold carried at hp ⊢
  rw [outsAt0_C m c t h0 h1]
  dsimp only
  rw [hp]
  exact stepC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) _ _ a

theorem atC_out (t : Fin cfg0.N) (h0 : ¬t.val % 12 = 0) (h1 : t.val % 12 = 11) (a : Fin 4 → EReal)
    (hp : carried m c (t.val - 1) (Nat.lt_of_le_of_lt (Nat.sub_le _ _) t.isLt) = tiles a) :
    ((outsAt0 m c t.val t.isLt).1, (outsAt0 m c t.val t.isLt).2.1, (outsAt0 m c t.val t.isLt).2.2.1, (outsAt0 m c t.val t.isLt).2.2.2.1)
      = tiles fun j => a j + bs m c j t := by
  unfold carried at hp
  rw [outsAt0_C m c t h0 h1]
  dsimp only
  rw [hp]
  exact stepC_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (iblk m c 0 t) (iblk m c 1 t) _ _ a

/-- THE INVARIANT: after point `n` every entry of running tile `j` is `acc j n`. -/
theorem carried_eq : ∀ (n : ℕ) (h : n < cfg0.N), carried m c n h = tiles fun j => acc m c j n h
  | 0, h => atA m c ⟨0, h⟩ rfl (by show ¬(0 % 12 = 11); omega)
  | n + 1, h => by
    have ih := carried_eq n (Nat.lt_of_succ_lt h)
    by_cases h0 : (n + 1) % 12 = 0
    · refine (atA m c ⟨n + 1, h⟩ h0 (by dsimp only; omega)).trans ?_
      refine congrArg tiles (funext fun j => ?_)
      show _ = (if (n + 1) % 12 = 0 then 0 else acc m c j n _) + bs m c j ⟨n + 1, h⟩
      rw [if_pos h0]
    · have e : tiles (fun j => acc m c j n (Nat.lt_of_succ_lt h) + bs m c j ⟨n + 1, h⟩) = tiles fun j => acc m c j (n + 1) h := by
        refine congrArg tiles (funext fun j => ?_)
        show _ = (if (n + 1) % 12 = 0 then 0 else acc m c j n _) + bs m c j ⟨n + 1, h⟩
        rw [if_neg h0]
      by_cases h1 : (n + 1) % 12 = 11
      · exact (atC m c ⟨n + 1, h⟩ h0 h1 _ ih).trans e
      · exact (atB m c ⟨n + 1, h⟩ h0 h1 _ ih).trans e

/-- At the last step of a sweep the output tiles hold the running sums too. -/
theorem outs_eq (t : Fin cfg0.N) (h1 : t.val % 12 = 11) :
    ((outsAt0 m c t.val t.isLt).1, (outsAt0 m c t.val t.isLt).2.1, (outsAt0 m c t.val t.isLt).2.2.1, (outsAt0 m c t.val t.isLt).2.2.2.1)
      = tiles fun j => acc m c j t.val t.isLt := by
  obtain ⟨n, h⟩ := t
  cases n with
  | zero => exact absurd h1 (by show ¬(0 % 12 = 11); omega)
  | succ n =>
    have h0 : ¬(n + 1) % 12 = 0 := by dsimp only at h1; omega
    refine (atC_out m c ⟨n + 1, h⟩ h0 h1 _ (carried_eq m c n (Nat.lt_of_succ_lt h))).trans ?_
    refine congrArg tiles (funext fun j => ?_)
    show _ = (if (n + 1) % 12 = 0 then 0 else acc m c j n _) + bs m c j ⟨n + 1, h⟩
    rw [if_neg h0]

end Cert.KernelIdeal.Val

end
-- ==== Proof.Final.lean ====
import proofs.«158789_j87651692577051_2_alg».proof.Proof.Accum
import Idealize.ShloMosaic.Lib.Pipeline.Value

/-!
# The four output arrays after the run

Output array `j` is 16 × 128: rows 0–7 are core 0's block and rows 8–15 core 1's. Each block is written back
once, at the last step of its core's sweep (points 11 and 23), with the running tile, every entry of which
is the sweep's running sum. So after the run entry `(r, l)` holds the running sum at point `12·(r/8) + 11`.
-/

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Spec

variable (m : (ℓ : Loc nD τ sig) → Buf (Elt Ideal) ℓ) (c : Dev nD)

/-- The running sum does not depend on how its point is written. -/
theorem acc_congr (j : Fin 4) {n n' : ℕ} (e : n = n') (h : n < cfg0.N) (h' : n' < cfg0.N) :
    acc m c j n h = acc m c j n' h' := by subst e; rfl

/-- The last point of the sweep of the core that owns row `r` of an output array. -/
theorem lastPt_lt (i : S16x128.Idx) : 12 * ((i 0).val / 8) + 11 < cfg0.N := by
  have h : (i 0).val < 16 := (i 0).isLt
  have hN : cfg0.N = 24 := N_0
  omega

/-- What output array `j` ends holding: at row `r`, the running sum at the end of core `r/8`'s sweep. -/
def outArr (j : Fin 4) : S16x128.Idx → EReal := fun i => acc m c j (12 * ((i 0).val / 8) + 11) (lastPt_lt i)

/-! ## Output window 2 -/

/-- Its block index at point `t` is `(t / 12, 0)`: one block per core. -/
theorem idx_facts2 : ∀ t : Fin cfg0.N, win0_2.index t (0 : Fin 2) = t.val / 12 ∧ win0_2.index t (1 : Fin 2) = 0 :=
  (by decide +kernel : ∀ t : Fin grid0.N, win0_2.index t (0 : Fin 2) = t.val / 12 ∧ win0_2.index t (1 : Fin 2) = 0)

/-- What a flushing point writes back is its block of `outArr 0`. -/
theorem flushed2_eq (t : Fin cfg0.N) (hf : (cfg0.win 2).flush t = true) :
    (dats m 0 c).flushed 2 t = ((cfg0.win 2).blk t).view.read (Elt Ideal) (outArr m c 0) := by
  have h11 : t.val % 12 = 11 := (flush0_2 t).mp hf
  have ho : (outsAt0 m c t.val t.isLt).1 = fun _ => acc m c 0 t.val t.isLt :=
    congrArg (fun p : Tile × Tile × Tile × Tile => p.1) (outs_eq m c t h11)
  show (cfg0.win 2).cut (grid0.coords t) ((dats m 0 c).after 2 t) = _
  rw [after0_2, ho]
  funext y
  show acc m c 0 t.val t.isLt = outArr m c 0 (((cfg0.win 2).blk t).view.emb y)
  unfold outArr
  refine acc_congr m c 0 ?_ _ _
  have e0 : ((((cfg0.win 2).blk t).view.emb y) 0).val = win0_2.index t (0 : Fin 2) * 8 + 1 * (y 0).val := rfl
  have hy : (y 0).val < 8 := (y 0).isLt
  have hN : cfg0.N = 24 := N_0
  have ht := t.isLt
  rw [e0, (idx_facts2 t).1]
  omega

/-- An index of the array is in point `t`'s block iff each coordinate is in the block's range on its axis. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2_0).slice (win0_2.rect t)).set ↔ _
  rw [View.set_slice_whole, Rect.mem_set_unit]
  exact Iff.rfl

/-- Every row is in the block of its core's last point, which writes back. -/
theorem cover2 (i : S16x128.Idx) : ∃ t : Fin cfg0.N, (cfg0.win 2).flush t = true ∧ i ∈ ((cfg0.win 2).blk t).view.set := by
  have h0 : (i 0).val < 16 := (i 0).isLt
  have h1 : (i 1).val < 128 := (i 1).isLt
  refine ⟨⟨12 * ((i 0).val / 8) + 11, lastPt_lt i⟩, (flush0_2 _).mpr (by dsimp only; omega), ?_⟩
  rw [mem_blk2]
  obtain ⟨e0, e1⟩ := idx_facts2 ⟨12 * ((i 0).val / 8) + 11, lastPt_lt i⟩
  dsimp only at e0
  intro a
  match a with
  | ⟨0, _⟩ => show win0_2.index _ (0 : Fin 2) * 8 ≤ (i 0).val ∧ (i 0).val < win0_2.index _ (0 : Fin 2) * 8 + 8; rw [e0]; omega
  | ⟨1, _⟩ => show win0_2.index _ (1 : Fin 2) * 128 ≤ (i 1).val ∧ (i 1).val < win0_2.index _ (1 : Fin 2) * 128 + 128; rw [e1]; omega

/-- The array after the run. -/
theorem final2 : (dats m 0 c).arrAt 2 cfg0.N = outArr m c 0 :=
  (dats m 0 c).arrAt_eq_of_cover 2 (outArr m c 0) (flushed2_eq m c) (cover2)

/-! ## Output window 3 -/

/-- Its block index at point `t` is `(t / 12, 0)`: one block per core. -/
theorem idx_facts3 : ∀ t : Fin cfg0.N, win0_3.index t (0 : Fin 2) = t.val / 12 ∧ win0_3.index t (1 : Fin 2) = 0 :=
  (by decide +kernel : ∀ t : Fin grid0.N, win0_3.index t (0 : Fin 2) = t.val / 12 ∧ win0_3.index t (1 : Fin 2) = 0)

/-- What a flushing point writes back is its block of `outArr 1`. -/
theorem flushed3_eq (t : Fin cfg0.N) (hf : (cfg0.win 3).flush t = true) :
    (dats m 0 c).flushed 3 t = ((cfg0.win 3).blk t).view.read (Elt Ideal) (outArr m c 1) := by
  have h11 : t.val % 12 = 11 := (flush0_3 t).mp hf
  have ho : (outsAt0 m c t.val t.isLt).2.1 = fun _ => acc m c 1 t.val t.isLt :=
    congrArg (fun p : Tile × Tile × Tile × Tile => p.2.1) (outs_eq m c t h11)
  show (cfg0.win 3).cut (grid0.coords t) ((dats m 0 c).after 3 t) = _
  rw [after0_3, ho]
  funext y
  show acc m c 1 t.val t.isLt = outArr m c 1 (((cfg0.win 3).blk t).view.emb y)
  unfold outArr
  refine acc_congr m c 1 ?_ _ _
  have e0 : ((((cfg0.win 3).blk t).view.emb y) 0).val = win0_3.index t (0 : Fin 2) * 8 + 1 * (y 0).val := rfl
  have hy : (y 0).val < 8 := (y 0).isLt
  have hN : cfg0.N = 24 := N_0
  have ht := t.isLt
  rw [e0, (idx_facts3 t).1]
  omega

/-- An index of the array is in point `t`'s block iff each coordinate is in the block's range on its axis. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v2_1).slice (win0_3.rect t)).set ↔ _
  rw [View.set_slice_whole, Rect.mem_set_unit]
  exact Iff.rfl

/-- Every row is in the block of its core's last point, which writes back. -/
theorem cover3 (i : S16x128.Idx) : ∃ t : Fin cfg0.N, (cfg0.win 3).flush t = true ∧ i ∈ ((cfg0.win 3).blk t).view.set := by
  have h0 : (i 0).val < 16 := (i 0).isLt
  have h1 : (i 1).val < 128 := (i 1).isLt
  refine ⟨⟨12 * ((i 0).val / 8) + 11, lastPt_lt i⟩, (flush0_3 _).mpr (by dsimp only; omega), ?_⟩
  rw [mem_blk3]
  obtain ⟨e0, e1⟩ := idx_facts3 ⟨12 * ((i 0).val / 8) + 11, lastPt_lt i⟩
  dsimp only at e0
  intro a
  match a with
  | ⟨0, _⟩ => show win0_3.index _ (0 : Fin 2) * 8 ≤ (i 0).val ∧ (i 0).val < win0_3.index _ (0 : Fin 2) * 8 + 8; rw [e0]; omega
  | ⟨1, _⟩ => show win0_3.index _ (1 : Fin 2) * 128 ≤ (i 1).val ∧ (i 1).val < win0_3.index _ (1 : Fin 2) * 128 + 128; rw [e1]; omega

/-- The array after the run. -/
theorem final3 : (dats m 0 c).arrAt 3 cfg0.N = outArr m c 1 :=
  (dats m 0 c).arrAt_eq_of_cover 3 (outArr m c 1) (flushed3_eq m c) (cover3)

/-! ## Output window 4 -/

/-- Its block index at point `t` is `(t / 12, 0)`: one block per core. -/
theorem idx_facts4 : ∀ t : Fin cfg0.N, win0_4.index t (0 : Fin 2) = t.val / 12 ∧ win0_4.index t (1 : Fin 2) = 0 :=
  (by decide +kernel : ∀ t : Fin grid0.N, win0_4.index t (0 : Fin 2) = t.val / 12 ∧ win0_4.index t (1 : Fin 2) = 0)

/-- What a flushing point writes back is its block of `outArr 2`. -/
theorem flushed4_eq (t : Fin cfg0.N) (hf : (cfg0.win 4).flush t = true) :
    (dats m 0 c).flushed 4 t = ((cfg0.win 4).blk t).view.read (Elt Ideal) (outArr m c 2) := by
  have h11 : t.val % 12 = 11 := (flush0_4 t).mp hf
  have ho : (outsAt0 m c t.val t.isLt).2.2.1 = fun _ => acc m c 2 t.val t.isLt :=
    congrArg (fun p : Tile × Tile × Tile × Tile => p.2.2.1) (outs_eq m c t h11)
  show (cfg0.win 4).cut (grid0.coords t) ((dats m 0 c).after 4 t) = _
  rw [after0_4, ho]
  funext y
  show acc m c 2 t.val t.isLt = outArr m c 2 (((cfg0.win 4).blk t).view.emb y)
  unfold outArr
  refine acc_congr m c 2 ?_ _ _
  have e0 : ((((cfg0.win 4).blk t).view.emb y) 0).val = win0_4.index t (0 : Fin 2) * 8 + 1 * (y 0).val := rfl
  have hy : (y 0).val < 8 := (y 0).isLt
  have hN : cfg0.N = 24 := N_0
  have ht := t.isLt
  rw [e0, (idx_facts4 t).1]
  omega

/-- An index of the array is in point `t`'s block iff each coordinate is in the block's range on its axis. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v2_2).slice (win0_4.rect t)).set ↔ _
  rw [View.set_slice_whole, Rect.mem_set_unit]
  exact Iff.rfl

/-- Every row is in the block of its core's last point, which writes back. -/
theorem cover4 (i : S16x128.Idx) : ∃ t : Fin cfg0.N, (cfg0.win 4).flush t = true ∧ i ∈ ((cfg0.win 4).blk t).view.set := by
  have h0 : (i 0).val < 16 := (i 0).isLt
  have h1 : (i 1).val < 128 := (i 1).isLt
  refine ⟨⟨12 * ((i 0).val / 8) + 11, lastPt_lt i⟩, (flush0_4 _).mpr (by dsimp only; omega), ?_⟩
  rw [mem_blk4]
  obtain ⟨e0, e1⟩ := idx_facts4 ⟨12 * ((i 0).val / 8) + 11, lastPt_lt i⟩
  dsimp only at e0
  intro a
  match a with
  | ⟨0, _⟩ => show win0_4.index _ (0 : Fin 2) * 8 ≤ (i 0).val ∧ (i 0).val < win0_4.index _ (0 : Fin 2) * 8 + 8; rw [e0]; omega
  | ⟨1, _⟩ => show win0_4.index _ (1 : Fin 2) * 128 ≤ (i 1).val ∧ (i 1).val < win0_4.index _ (1 : Fin 2) * 128 + 128; rw [e1]; omega

/-- The array after the run. -/
theorem final4 : (dats m 0 c).arrAt 4 cfg0.N = outArr m c 2 :=
  (dats m 0 c).arrAt_eq_of_cover 4 (outArr m c 2) (flushed4_eq m c) (cover4)

/-! ## Output window 5 -/

/-- Its block index at point `t` is `(t / 12, 0)`: one block per core. -/
theorem idx_facts5 : ∀ t : Fin cfg0.N, win0_5.index t (0 : Fin 2) = t.val / 12 ∧ win0_5.index t (1 : Fin 2) = 0 :=
  (by decide +kernel : ∀ t : Fin grid0.N, win0_5.index t (0 : Fin 2) = t.val / 12 ∧ win0_5.index t (1 : Fin 2) = 0)

/-- What a flushing point writes back is its block of `outArr 3`. -/
theorem flushed5_eq (t : Fin cfg0.N) (hf : (cfg0.win 5).flush t = true) :
    (dats m 0 c).flushed 5 t = ((cfg0.win 5).blk t).view.read (Elt Ideal) (outArr m c 3) := by
  have h11 : t.val % 12 = 11 := (flush0_5 t).mp hf
  have ho : (outsAt0 m c t.val t.isLt).2.2.2.1 = fun _ => acc m c 3 t.val t.isLt :=
    congrArg (fun p : Tile × Tile × Tile × Tile => p.2.2.2) (outs_eq m c t h11)
  show (cfg0.win 5).cut (grid0.coords t) ((dats m 0 c).after 5 t) = _
  rw [after0_5, ho]
  funext y
  show acc m c 3 t.val t.isLt = outArr m c 3 (((cfg0.win 5).blk t).view.emb y)
  unfold outArr
  refine acc_congr m c 3 ?_ _ _
  have e0 : ((((cfg0.win 5).blk t).view.emb y) 0).val = win0_5.index t (0 : Fin 2) * 8 + 1 * (y 0).val := rfl
  have hy : (y 0).val < 8 := (y 0).isLt
  have hN : cfg0.N = 24 := N_0
  have ht := t.isLt
  rw [e0, (idx_facts5 t).1]
  omega

/-- An index of the array is in point `t`'s block iff each coordinate is in the block's range on its axis. -/
theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v2_3).slice (win0_5.rect t)).set ↔ _
  rw [View.set_slice_whole, Rect.mem_set_unit]
  exact Iff.rfl

/-- Every row is in the block of its core's last point, which writes back. -/
theorem cover5 (i : S16x128.Idx) : ∃ t : Fin cfg0.N, (cfg0.win 5).flush t = true ∧ i ∈ ((cfg0.win 5).blk t).view.set := by
  have h0 : (i 0).val < 16 := (i 0).isLt
  have h1 : (i 1).val < 128 := (i 1).isLt
  refine ⟨⟨12 * ((i 0).val / 8) + 11, lastPt_lt i⟩, (flush0_5 _).mpr (by dsimp only; omega), ?_⟩
  rw [mem_blk5]
  obtain ⟨e0, e1⟩ := idx_facts5 ⟨12 * ((i 0).val / 8) + 11, lastPt_lt i⟩
  dsimp only at e0
  intro a
  match a with
  | ⟨0, _⟩ => show win0_5.index _ (0 : Fin 2) * 8 ≤ (i 0).val ∧ (i 0).val < win0_5.index _ (0 : Fin 2) * 8 + 8; rw [e0]; omega
  | ⟨1, _⟩ => show win0_5.index _ (1 : Fin 2) * 128 ≤ (i 1).val ∧ (i 1).val < win0_5.index _ (1 : Fin 2) * 128 + 128; rw [e1]; omega

/-- The array after the run. -/
theorem final5 : (dats m 0 c).arrAt 5 cfg0.N = outArr m c 3 :=
  (dats m 0 c).arrAt_eq_of_cover 5 (outArr m c 3) (flushed5_eq m c) (cover5)

end Cert.KernelIdeal.Val

end
-- ==== Proof.Regroup.lean ====
import proofs.«158789_j87651692577051_2_alg».proof.Proof.Gen.KernelIdeal.Frame
import proofs.«158789_j87651692577051_2_alg».proof.Proof.Payloads
import Idealize.ShloMosaic.Lib.Pipeline.Value
import Idealize.ShloMosaic.Lib.StableHlo.Run
import Idealize.ShloMosaic.Lib.Tactic
import Idealize.ShloMosaic.Lib.ValueIdx

/-!
# The block totals regrouped into one sum over the argument arrays

Each argument array of shape 32 × 1 × 768 × 1024 is recast to 24576 × 1024 before the grid runs, and grid
point `t` (of 24) sees rows `1024·t … 1024·t + 1023` of the recast array as its 1024 × 1024 block. The pairs
(point, index in the block) are in bijection with the indices of the recast array, and the recast is itself a
bijection of index sets; so the sum over the points of the sums over their blocks of any per-element term is the
sum of that term over the argument arrays.
-/

set_option maxRecDepth 16384

noncomputable section

open Idealize.ShloMosaic Idealize.ShloMosaic.TcCoe Idealize.SL.Sem

namespace Cert.KernelIdeal.Val

open Cert.KernelIdeal Cert.KernelIdeal.Gen Idealize.ShloMosaic.ValueIdx

/-- Twenty-four blocks of 1024 rows tile the 24576 rows: if `row t k` has coordinates `(1024·t + k₀, k₁)`, the
    double sum over the points and the in-block indices is the sum over all rows and columns. -/
theorem sum_rowBlocks {M : Type*} [AddCommMonoid M] {N : ℕ} (hN : N = 24) (f : S24576x1024.Idx → M)
    (row : Fin N → S1024x1024.Idx → S24576x1024.Idx)
    (h0 : ∀ t k, (row t k 0).val = 1024 * t.val + (k 0).val) (h1 : ∀ t k, (row t k 1).val = (k 1).val) :
    ∑ t : Fin N, ∑ k : S1024x1024.Idx, f (row t k) = ∑ r : S24576x1024.Idx, f r := by
  subst hN
  refine (Fintype.sum_prod_type' (fun t k => f (row t k))).symm.trans
    (Function.Bijective.sum_comp (e := fun p : Fin 24 × S1024x1024.Idx => row p.1 p.2) ⟨?_, ?_⟩ f)
  · rintro ⟨t, k⟩ ⟨t', k'⟩ h
    have e0 : (row t k 0).val = (row t' k' 0).val := congrArg (fun r : S24576x1024.Idx => (r 0).val) h
    have e1 : (row t k 1).val = (row t' k' 1).val := congrArg (fun r : S24576x1024.Idx => (r 1).val) h
    rw [h0, h0] at e0
    rw [h1, h1] at e1
    have hk := idx2_lt0 k
    have hk' := idx2_lt0 k'
    have ht : t = t' := Fin.ext (by omega)
    have hk0 : k 0 = k' 0 := Fin.ext (by omega)
    have hk1 : k 1 = k' 1 := Fin.ext e1
    rw [Prod.mk.injEq]
    exact ⟨ht, by rw [eq_ix2 k, eq_ix2 k', hk0, hk1]⟩
  · intro r
    have hr0 := idx2_lt0 r
    have hr1 := idx2_lt1 r
    refine ⟨(⟨(r 0).val / 1024, by omega⟩, ix2 ⟨(r 0).val % 1024, by omega⟩ ⟨(r 1).val, hr1⟩), ?_⟩
    funext a
    apply Fin.ext
    match a with
    | ⟨0, _⟩ =>
      show (row _ _ 0).val = (r 0).val
      rw [h0]
      show 1024 * ((r 0).val / 1024) + (r 0).val % 1024 = (r 0).val
      omega
    | ⟨1, _⟩ =>
      show (row _ _ 1).val = (r 1).val
      rw [h1]

variable (m : (ℓ : Loc nD τ sig) → Buf (Elt Ideal) ℓ)

/-- The recast of the first argument array is what the grid finds in its first window's array. -/
theorem V_main_v0 (c : Dev nD) : (V m c main_v0 : S24576x1024.Idx → EReal)
    = shapeCast S24576x1024 (m ((c : Thread nD τ).loc main_arg0)) shapeCasts_S32x1x768x1024_S24576x1024 := by
  dsimp only [Gen.V, Gen.V0]
  simp only [Gen.hostOps0, List.flatten_cons, List.flatten_nil, List.append_nil]
  after_results
  rfl

/-- The recast of the second argument array is what the grid finds in its second window's array. -/
theorem V_main_v1 (c : Dev nD) : (V m c main_v1 : S24576x1024.Idx → EReal)
    = shapeCast S24576x1024 (m ((c : Thread nD τ).loc main_arg1)) shapeCasts_S32x1x768x1024_S24576x1024 := by
  dsimp only [Gen.V, Gen.V0]
  simp only [Gen.hostOps0, List.flatten_cons, List.flatten_nil, List.append_nil]
  after_results
  rfl

/-- The block index of both input windows at point `t` is `(t, 0)`, decided over the 24 points. -/
theorem idx_facts : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- The index of the recast array that point `t`'s first window reads at in-block index `k`. -/
def row0 (t : Fin cfg0.N) (k : S1024x1024.Idx) : S24576x1024.Idx := ((cfg0.win 0).blk t).view.emb k

/-- Its row is `1024·t + k₀`. -/
theorem row0_fst (t : Fin cfg0.N) (k : S1024x1024.Idx) : (row0 t k 0).val = 1024 * t.val + (k 0).val := by
  show win0_0.index t (0 : Fin 2) * 1024 + 1 * (k 0).val = _
  rw [(idx_facts t).1]
  omega

/-- Its column is `k₁`. -/
theorem row0_snd (t : Fin cfg0.N) (k : S1024x1024.Idx) : (row0 t k 1).val = (k 1).val := by
  show win0_0.index t (1 : Fin 2) * 1024 + 1 * (k 1).val = _
  rw [(idx_facts t).2.1]
  omega

/-- The second window reads the same index of its own array. -/
theorem row1_eq (t : Fin cfg0.N) (k : S1024x1024.Idx) : ((cfg0.win 1).blk t).view.emb k = row0 t k := by
  funext a
  apply Fin.ext
  match a with
  | ⟨0, _⟩ =>
    show win0_1.index t (0 : Fin 2) * 1024 + 1 * (k 0).val = win0_0.index t (0 : Fin 2) * 1024 + 1 * (k 0).val
    rw [(idx_facts t).1, (idx_facts t).2.2.1]
  | ⟨1, _⟩ =>
    show win0_1.index t (1 : Fin 2) * 1024 + 1 * (k 1).val = win0_0.index t (1 : Fin 2) * 1024 + 1 * (k 1).val
    rw [(idx_facts t).2.1, (idx_facts t).2.2.2]

/-- An entry of the first window's block is the recast first argument at that index. -/
theorem iblk0_apply (c : Dev nD) (t : Fin cfg0.N) (k : S1024x1024.Idx) :
    (iblk m c 0 t : Vec Ideal S1024x1024 .f32) k = (V m c main_v0 : S24576x1024.Idx → EReal) (row0 t k) := by
  unfold iblk
  rw [View.read_apply]
  rfl

/-- An entry of the second window's block is the recast second argument at the same index. -/
theorem iblk1_apply (c : Dev nD) (t : Fin cfg0.N) (k : S1024x1024.Idx) :
    (iblk m c 1 t : Vec Ideal S1024x1024 .f32) k = (V m c main_v1 : S24576x1024.Idx → EReal) (row0 t k) := by
  unfold iblk
  rw [View.read_apply, ← row1_eq]
  rfl

/-- The sum over the points of the sums over their blocks of a per-element term is its sum over the arguments. -/
theorem blocks_total (c : Dev nD) (g : EReal → EReal → EReal) :
    ∑ t : Fin cfg0.N, ∑ k : S1024x1024.Idx,
        g ((iblk m c 0 t : Vec Ideal S1024x1024 .f32) k) ((iblk m c 1 t : Vec Ideal S1024x1024 .f32) k)
      = ∑ i : S32x1x768x1024.Idx,
          g (m ((c : Thread nD τ).loc main_arg0) i) (m ((c : Thread nD τ).loc main_arg1) i) := by
  have h : ∀ t : Fin cfg0.N, ∀ k : S1024x1024.Idx,
      g ((iblk m c 0 t : Vec Ideal S1024x1024 .f32) k) ((iblk m c 1 t : Vec Ideal S1024x1024 .f32) k)
        = g (shapeCast S24576x1024 (m ((c : Thread nD τ).loc main_arg0)) shapeCasts_S32x1x768x1024_S24576x1024 (row0 t k))
            (shapeCast S24576x1024 (m ((c : Thread nD τ).loc main_arg1)) shapeCasts_S32x1x768x1024_S24576x1024 (row0 t k)) := by
    intro t k
    rw [iblk0_apply, iblk1_apply, V_main_v0, V_main_v1]
  refine (Finset.sum_congr rfl fun t _ => Finset.sum_congr rfl fun k _ => h t k).trans ?_
  refine (sum_rowBlocks N_0
    (fun r => g (shapeCast S24576x1024 (m ((c : Thread nD τ).loc main_arg0)) shapeCasts_S32x1x768x1024_S24576x1024 r)
      (shapeCast S24576x1024 (m ((c : Thread nD τ).loc main_arg1)) shapeCasts_S32x1x768x1024_S24576x1024 r))
    row0 row0_fst row0_snd).trans ?_
  exact Equiv.sum_comp (Shape.reshapeEquiv shapeCasts_S32x1x768x1024_S24576x1024)
    (fun i => g (m ((c : Thread nD τ).loc main_arg0) i) (m ((c : Thread nD τ).loc main_arg1) i))

/-- Each of the four block totals, summed over the grid's points, is the sum of its per-element term over the
    two argument arrays. -/
theorem bsum_total (c : Dev nD) (j : Fin 4) :
    ∑ t : Fin cfg0.N, bsum j (iblk m c 0 t) (iblk m c 1 t)
      = ∑ i : S32x1x768x1024.Idx,
          elem j (m ((c : Thread nD τ).loc main_arg0) i) (m ((c : Thread nD τ).loc main_arg1) i) :=
  blocks_total m c (elem j)

end Cert.KernelIdeal.Val

end
-- ==== Proof.Sweeps.lean ====
import proofs.«158789_j87651692577051_2_alg».proof.Proof.Accum
import proofs.«158789_j87651692577051_2_alg».proof.Proof.Regroup

/-!
# The two sweeps add up

The grid's 24 points are two sweeps of twelve. The running sum restarts at the first step of a sweep, so after
a sweep's last step it is the sum of that sweep's twelve block totals; the two final running sums together are the
sum of all 24 block totals, which is the sum of the per-element term over the two argument arrays. In the
specification's vocabulary the four totals are the two label counts and the two masked sums of losses.
-/

set_option maxRecDepth 16384

noncomputable section

open Idealize.ShloMosaic Idealize.ShloMosaic.TcCoe Idealize.SL.Sem

namespace Cert.KernelIdeal.Val

open Cert.KernelIdeal Cert.KernelIdeal.Gen

variable (m : (ℓ : Loc nD τ sig) → Buf (Elt Ideal) ℓ) (c : Dev nD)

/-- One step of the running sum, at any point: restart at the first step of a sweep, else continue. -/
theorem acc_step (j : Fin 4) (n : ℕ) (h : n < cfg0.N) :
    acc m c j n h
      = (if n % 12 = 0 then 0 else acc m c j (n - 1) (Nat.lt_of_le_of_lt (Nat.sub_le _ _) h)) + bs m c j ⟨n, h⟩ := by
  cases n with
  | zero => show 0 + bs m c j ⟨0, h⟩ = _; rw [if_pos rfl]
  | succ n => rfl

/-- The block totals, extended by zero beyond the grid. -/
def bsN (j : Fin 4) (n : ℕ) : EReal := if h : n < cfg0.N then bs m c j ⟨n, h⟩ else 0

/-- Within sweep `p`, the running sum after its step `k` is the sum of the sweep's first `k + 1` block totals. -/
theorem acc_sweep (j : Fin 4) : ∀ (k p n : ℕ) (hn : n = 12 * p + k) (hk : k ≤ 11) (h : n < cfg0.N),
    acc m c j n h = ∑ i ∈ Finset.range (k + 1), bsN m c j (12 * p + i) := by
  intro k
  induction k with
  | zero =>
    intro p n hn hk h
    subst hn
    rw [acc_step, if_pos (by omega), zero_add, Finset.sum_range_one]
    unfold bsN
    rw [dif_pos h]
  | succ k ih =>
    intro p n hn hk h
    subst hn
    rw [acc_step, if_neg (by omega), ih p (12 * p + (k + 1) - 1) (by omega) (by omega),
      Finset.sum_range_succ _ (k + 1)]
    congr 1
    unfold bsN
    rw [dif_pos h]

/-- The two sweeps' final running sums add up to the sum of the per-element term over the argument arrays. -/
theorem acc_total (j : Fin 4) (h11 : 11 < cfg0.N) (h23 : 23 < cfg0.N) :
    acc m c j 11 h11 + acc m c j 23 h23
      = ∑ i : S32x1x768x1024.Idx,
          elem j (m ((c : Thread nD τ).loc main_arg0) i) (m ((c : Thread nD τ).loc main_arg1) i) := by
  have h24 : Finset.range cfg0.N = Finset.range (12 + 12) := congrArg Finset.range N_0
  calc acc m c j 11 h11 + acc m c j 23 h23
      = ∑ i ∈ Finset.range 12, bsN m c j i + ∑ i ∈ Finset.range 12, bsN m c j (12 + i) := by
        rw [acc_sweep m c j 11 0 11 (by norm_num) (le_refl _) h11,
          acc_sweep m c j 11 1 23 (by norm_num) (le_refl _) h23]
        simp only [Nat.mul_zero, Nat.zero_add, Nat.mul_one]
    _ = ∑ n ∈ Finset.range (12 + 12), bsN m c j n := (Finset.sum_range_add _ 12 12).symm
    _ = ∑ n ∈ Finset.range cfg0.N, bsN m c j n := by rw [h24]
    _ = ∑ t : Fin cfg0.N, bs m c j t := (Finset.sum_fin_eq_sum_range _).symm
    _ = _ := bsum_total m c j

/-! ## The four totals in the specification's vocabulary -/

/-- The two sweeps' counts of label 1 add up to the count over the whole label array. -/
theorem acc0_total (h11 : 11 < cfg0.N) (h23 : 23 < cfg0.N) :
    acc m c 0 11 h11 + acc m c 0 23 h23 = Cert.Spec.cnt one (m ((c : Thread nD τ).loc main_arg1)) := by
  rw [acc_total]
  unfold Cert.Spec.cnt
  exact Finset.sum_congr rfl fun i _ => rfl

/-- The two sweeps' counts of label 0 add up to the count over the whole label array. -/
theorem acc1_total (h11 : 11 < cfg0.N) (h23 : 23 < cfg0.N) :
    acc m c 1 11 h11 + acc m c 1 23 h23 = Cert.Spec.cnt 0 (m ((c : Thread nD τ).loc main_arg1)) := by
  rw [acc_total]
  unfold Cert.Spec.cnt
  exact Finset.sum_congr rfl fun i _ => rfl

/-- The two sweeps' summed losses of the elements labelled 1 add up to the masked sum over the whole arrays. -/
theorem acc2_total (h11 : 11 < cfg0.N) (h23 : 23 < cfg0.N) :
    acc m c 2 11 h11 + acc m c 2 23 h23
      = Cert.Spec.msum one (m ((c : Thread nD τ).loc main_arg0)) (m ((c : Thread nD τ).loc main_arg1)) := by
  rw [acc_total]
  unfold Cert.Spec.msum
  exact Finset.sum_congr rfl fun i _ => rfl

/-- The two sweeps' summed losses of the elements labelled 0 add up to the masked sum over the whole arrays. -/
theorem acc3_total (h11 : 11 < cfg0.N) (h23 : 23 < cfg0.N) :
    acc m c 3 11 h11 + acc m c 3 23 h23
      = Cert.Spec.msum 0 (m ((c : Thread nD τ).loc main_arg0)) (m ((c : Thread nD τ).loc main_arg1)) := by
  rw [acc_total]
  unfold Cert.Spec.msum
  exact Finset.sum_congr rfl fun i _ => rfl

end Cert.KernelIdeal.Val

end
-- ==== Proof.Tail.lean ====
import proofs.«158789_j87651692577051_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

/-!
# The host operations after the region

After its one region the program reads, from each of the four 16×128 output arrays, the entries at (0,0) and (8,0),
adds the two, and combines the four sums `s₂ s₃ s₄ s₅` as `((s₃ / (s₂ + s₃)) · s₄ + (s₂ / (s₂ + s₃)) · s₅) / d`
with `d` the constant divisor. This module states that value over the four arrays as the region leaves them.
-/

set_option maxRecDepth 16384

noncomputable section

namespace Cert.KernelIdeal.Val

open Idealize.ShloMosaic Idealize.ShloMosaic.TcCoe Idealize.SL.Sem Cert.KernelIdeal Cert.KernelIdeal.Gen
open Idealize.ShloMosaic.StableHlo

/-- A one-element slice of a 16×128 array at the offsets `off`, reshaped to any shape with one element, is the
    array's entry at `off`. -/
theorem read_slice {t : Shape} (hc : S1x1.ShapeCasts t) (G : S16x128.Idx → EReal) (off : Fin 2 → Nat)
    (hs : S16x128.Slices off S1x1) (i : t.Idx) (k : S16x128.Idx) (hk : ∀ a, (k a).val = off a) :
    shapeCast t (extractStridedSlice S1x1 off G hs) hc i = G k := by
  have h1 : S1x1.numel = 1 := Shape.numel_eq_one (fun a => by fin_cases a <;> rfl)
  rw [shapeCast_apply _ hc i (ValueIdx.ix2 0 0) (by
    have a := (S1x1.rowMajor (ValueIdx.ix2 0 0)).isLt
    have b := (t.rowMajor i).isLt
    have e : t.numel = S1x1.numel := hc
    omega)]
  exact extractStridedSlice_apply off G hs (ValueIdx.ix2 0 0) k (fun a => by rw [hk a]; fin_cases a <;> rfl)

/-- The entry at row 0, column 0. -/
theorem read00 {t : Shape} (hc : S1x1.ShapeCasts t) (G : S16x128.Idx → EReal) (i : t.Idx) :
    shapeCast t (extractStridedSlice S1x1 ![0, 0] G slices_S16x128_S1x1_0_0) hc i = G (ValueIdx.ix2 0 0) :=
  read_slice hc G _ _ i _ (fun a => by fin_cases a <;> rfl)

/-- The entry at row 8, column 0. -/
theorem read80 {t : Shape} (hc : S1x1.ShapeCasts t) (G : S16x128.Idx → EReal) (i : t.Idx) :
    shapeCast t (extractStridedSlice S1x1 ![8, 0] G slices_S16x128_S1x1_8_0) hc i = G (ValueIdx.ix2 8 0) :=
  read_slice hc G _ _ i _ (fun a => by fin_cases a <;> rfl)

set_option maxHeartbeats 1600000 in
/-- The host operations after the region: from each of the four output arrays the entries (0,0) and (8,0) are added;
    the two class shares are the quotients of the first two sums by their total; the result is the share-weighted sum
    of the last two sums, over the constant. -/
theorem tail_eq (m : (ℓ : Loc nD τ sig) → Buf (Elt Ideal) ℓ) (c : Dev nD) (G2 G3 G4 G5 : S16x128.Idx → EReal)
    (h2 : (dats m 0 c).arrAt 2 cfg0.N = G2) (h3 : (dats m 0 c).arrAt 3 cfg0.N = G3)
    (h4 : (dats m 0 c).arrAt 4 cfg0.N = G4) (h5 : (dats m 0 c).arrAt 5 cfg0.N = G5) :
    Pipeline.afterTail₀ cfgs (dats m) 0 (V0 m) [hostOps1] c main_v29
      = fun _ => Ideal.div
          (Ideal.div (G3 (ValueIdx.ix2 0 0) + G3 (ValueIdx.ix2 8 0))
              ((G2 (ValueIdx.ix2 0 0) + G2 (ValueIdx.ix2 8 0)) + (G3 (ValueIdx.ix2 0 0) + G3 (ValueIdx.ix2 8 0)))
            * (G4 (ValueIdx.ix2 0 0) + G4 (ValueIdx.ix2 8 0))
           + Ideal.div (G2 (ValueIdx.ix2 0 0) + G2 (ValueIdx.ix2 8 0))
              ((G2 (ValueIdx.ix2 0 0) + G2 (ValueIdx.ix2 8 0)) + (G3 (ValueIdx.ix2 0 0) + G3 (ValueIdx.ix2 8 0)))
            * (G5 (ValueIdx.ix2 0 0) + G5 (ValueIdx.ix2 8 0)))
          (Ideal.ofBits .f32 0x4BC00000#32) := by
  have e2 : Pipeline.withArrays (cfgs 0).spec c (V0 m c) (fun w => (dats m 0 c).arrAt w (cfgs 0).N)
      (Proc.devRef .tc main_v2_0) = G2 := (Pipeline.withArrays_arr spec0 launch0.win.arr_inj c _ _ 2).trans h2
  have e3 : Pipeline.withArrays (cfgs 0).spec c (V0 m c) (fun w => (dats m 0 c).arrAt w (cfgs 0).N)
      (Proc.devRef .tc main_v2_1) = G3 := (Pipeline.withArrays_arr spec0 launch0.win.arr_inj c _ _ 3).trans h3
  have e4 : Pipeline.withArrays (cfgs 0).spec c (V0 m c) (fun w => (dats m 0 c).arrAt w (cfgs 0).N)
      (Proc.devRef .tc main_v2_2) = G4 := (Pipeline.withArrays_arr spec0 launch0.win.arr_inj c _ _ 4).trans h4
  have e5 : Pipeline.withArrays (cfgs 0).spec c (V0 m c) (fun w => (dats m 0 c).arrAt w (cfgs 0).N)
      (Proc.devRef .tc main_v2_3) = G5 := (Pipeline.withArrays_arr spec0 launch0.win.arr_inj c _ _ 5).trans h5
  unfold Pipeline.afterTail₀
  show StableHlo.after hostOps1 _ (Proc.devRef .tc main_v29) = _
  after_results_simp
  rw [e2, e3, e4, e5]
  funext i
  simp only [Host.divf, addf, mulf, constant, Ideal.hostDivf_def, Ideal.addf_def, Ideal.mulf_def,
    Ideal.ofBits_def]
  rw [read00 (t := main_v4.ty.shape) shapeCasts_S1x1_S_ G2 i, read80 (t := main_v6.ty.shape) shapeCasts_S1x1_S_ G2 i,
    read00 (t := main_v9.ty.shape) shapeCasts_S1x1_S_ G3 i, read80 (t := main_v11.ty.shape) shapeCasts_S1x1_S_ G3 i,
    read00 (t := main_v14.ty.shape) shapeCasts_S1x1_S_ G4 i, read80 (t := main_v16.ty.shape) shapeCasts_S1x1_S_ G4 i,
    read00 (t := main_v19.ty.shape) shapeCasts_S1x1_S_ G5 i, read80 (t := main_v21.ty.shape) shapeCasts_S1x1_S_ G5 i]

end Cert.KernelIdeal.Val

end
-- ==== Proof.KernelRun.lean ====
import proofs.«158789_j87651692577051_2_alg».proof.Proof.Final
import proofs.«158789_j87651692577051_2_alg».proof.Proof.Sweeps
import proofs.«158789_j87651692577051_2_alg».proof.Proof.Tail
import Idealize.ShloMosaic.Lib.Pipeline.Value
import Idealize.ShloMosaic.Lib.ValueIdx

/-!
# The kernel's run, with its result named

The host operations after the region read entries (0,0) and (8,0) of each output array; these hold the running sums
at the ends of the two cores' sweeps (points 11 and 23). The two sweeps' final running sums add up to the two label
counts and the two masked sums of losses over the whole arguments, so the program's result is the specification's
kernel value of its two arguments.
-/

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Spec

variable (m : (ℓ : Loc nD τ sig) → Buf (Elt Ideal) ℓ) (c : Dev nD)

/-! ## The two entries of each output array that the host operations read -/

/-- Entry (0,0) is in core 0's block: it holds the running sum at the end of the first sweep. -/
theorem outArr_00 (j : Fin 4) (h11 : 11 < cfg0.N) : outArr m c j (ValueIdx.ix2 0 0) = acc m c j 11 h11 := by
  unfold outArr
  exact acc_congr m c j (by decide) _ _

/-- Entry (8,0) is in core 1's block: it holds the running sum at the end of the second sweep. -/
theorem outArr_80 (j : Fin 4) (h23 : 23 < cfg0.N) : outArr m c j (ValueIdx.ix2 8 0) = acc m c j 23 h23 := by
  unfold outArr
  exact acc_congr m c j (by decide) _ _

/-! ## The program's result -/

/-- The value the program leaves in its result buffer is the specification's kernel value of the two arguments:
    the two counts and the two masked sums are each the sum of the two sweeps' final running sums. -/
theorem result_eq :
    Pipeline.afterTail₀ cfgs (dats m) 0 (V0 m) [hostOps1] c main_v29
      = fun _ => Cert.Spec.kernelVal one 0 (Ideal.ofBits .f32 0x4BC00000#32)
          (m ((c : Thread nD τ).loc main_arg0)) (m ((c : Thread nD τ).loc main_arg1)) := by
  have hN : cfg0.N = 24 := N_0
  have h11 : 11 < cfg0.N := by omega
  have h23 : 23 < cfg0.N := by omega
  refine (tail_eq m c _ _ _ _ (final2 m c) (final3 m c) (final4 m c) (final5 m c)).trans ?_
  funext _
  unfold Cert.Spec.kernelVal
  rw [outArr_00 m c 0 h11, outArr_80 m c 0 h23, outArr_00 m c 1 h11, outArr_80 m c 1 h23,
    outArr_00 m c 2 h11, outArr_80 m c 2 h23, outArr_00 m c 3 h11, outArr_80 m c 3 h23,
    acc0_total m c h11 h23, acc1_total m c h11 h23, acc2_total m c h11 h23, acc3_total m c h11 h23]

/-- The run of the program, with its result named: every fair execution on the TensorCores terminates with the
    result buffer at the specification's kernel value of the two arguments and the two arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v29)
          = (fun _ => Cert.Spec.kernelVal one 0 (Ideal.ofBits .f32 0x4BC00000#32)
              (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun r h c =>
    ⟨((h c).2 main_v29 (Pipeline.mem_restRefs_of main_v29 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Val

end
-- ==== Proof.RefValue.lean ====
import proofs.«158789_j87651692577051_2_alg».proof.Proof.Gen.ReferenceIdeal.Read
import proofs.«158789_j87651692577051_2_alg».proof.Proof.Spec
import Idealize.ShloMosaic.PureOps.Reduce
import Idealize.ShloMosaic.Lib.IndicatorCount

/-!
# The reference computes `Spec.refVal`

The reference flattens both arguments to one axis of 25165824 positions through the same map
`n ↦ (n / 786432, 0, n / 1024 % 768, n % 1024)`, a bijection onto the arguments' own index type. It counts the
labels equal to 1.0 and to 0.0 by two integer sums of 0/1 words (no wrap-around: at most 25165824 < 2³¹ ones),
reads the counts as floats, weights every element's loss by the other class's share of the labelled elements, sums,
and divides by the constant. Re-indexing every sum through the bijection gives the weighted mean over the
arguments' own indices.
-/

noncomputable section

namespace Cert.ReferenceIdeal.RefValue

open Cert.ReferenceIdeal Cert.ReferenceIdeal.Gen Cert.ReferenceIdeal.Read Idealize.ShloMosaic

/-! ## The flattening map is a bijection -/

/-- The flattening map: position `n` of the flat array reads the argument at `(n / 786432, 0, n / 1024 % 768, n % 1024)`. -/
def flat (n : S25165824.Idx) : S32x1x768x1024.Idx := idx_main_v0 (idx_main_v1 n)

theorem flat_injective : Function.Injective flat := by
  intro n m h
  have h0 := congrArg (fun f => (f 0).val) h
  have h2 := congrArg (fun f => (f 2).val) h
  have h3 := congrArg (fun f => (f 3).val) h
  have hn : (n 0).val < 25165824 := (n 0).isLt
  have hm : (m 0).val < 25165824 := (m 0).isLt
  simp only [flat] at h0 h2 h3
  change (n 0).val / 786432 = (m 0).val / 786432 at h0
  change (n 0).val / 1024 % 768 = (m 0).val / 1024 % 768 at h2
  change (n 0).val / 1 % 1024 = (m 0).val / 1 % 1024 at h3
  funext a
  have ha : a = 0 := Subsingleton.elim _ _
  subst ha
  exact Fin.ext (by omega)

theorem numel_arg : S32x1x768x1024.numel = 25165824 := by
  simp [Shape.numel, Fin.prod_univ_four]

theorem numel_flat : S25165824.numel = 25165824 := Shape.numel_rank1 _

theorem flat_bijective : Function.Bijective flat :=
  (Fintype.bijective_iff_injective_and_card flat).2
    ⟨flat_injective, by rw [Shape.card_idx, Shape.card_idx, numel_arg, numel_flat]⟩

theorem sum_flat {M : Type*} [AddCommMonoid M] (g : S32x1x768x1024.Idx → M) :
    ∑ n : S25165824.Idx, g (flat n) = ∑ j, g j :=
  flat_bijective.sum_comp g

/-! ## An integer sum of 0/1 words is a count -/

/-- The inclusion of the reals in the extended reals commutes with finite sums. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- An equality test is the one-bit word `1` exactly when the equality holds. -/
theorem cmp_oeq_eq_one (t c : EReal) : Ideal.cmp .oeq t c = 1#1 ↔ t = c := by
  by_cases h : t = c
  · simp [Ideal.cmp, h]
  · simp [Ideal.cmp, h]

/-- The integer sum of the widened equality tests over the flat array, read as a float, is the number of
    positions where the equality holds: at most 25165824 < 2³¹ ones are added, so the 32-bit sum does not wrap. -/
theorem count_eq (t : S25165824.Idx → EReal) (c : EReal) (k : S_.Idx) :
    ((((Host.reduce IntOp.addi (fun n => (Ideal.cmp .oeq (t n) c).setWidth 32) (fun _ => 0#32)
        reducesTo_S25165824_S_d0 h_S_ k).toInt : ℝ)) : EReal) = ∑ n, if t n = c then (1 : EReal) else 0 := by
  classical
  rw [Host.reduce_eq_fold]
  have hf : (Finset.univ.filter fun i => reducesTo_S25165824_S_d0.drop i = k) = Finset.univ :=
    Finset.filter_true_of_mem (fun i _ => funext fun b => b.elim0)
  rw [hf, IndicatorCount.fold_addi_setWidth_eq_card]
  generalize hN : (Finset.univ.filter fun n => Ideal.cmp .oeq (t n) c = 1#1).card = N
  have hle : N ≤ 25165824 := by
    rw [← hN]
    refine (Finset.card_filter_le _ _).trans ?_
    rw [Finset.card_univ, Shape.card_idx, Shape.numel_rank1]
    exact le_refl _
  have hnat : (BitVec.ofNat 32 N).toNat = N := by
    rw [BitVec.toNat_ofNat]; exact Nat.mod_eq_of_lt (by omega)
  have hint : (BitVec.ofNat 32 N).toInt = (N : ℤ) := by
    rw [BitVec.toInt_eq_toNat_of_lt (by rw [hnat]; omega), hnat]
  rw [hint, Int.cast_natCast, ← hN, Finset.card_filter, Nat.cast_sum, coe_sum]
  refine Finset.sum_congr rfl fun n _ => ?_
  by_cases h : t n = c
  · rw [if_pos ((cmp_oeq_eq_one (t n) c).2 h), if_pos h]; simp
  · have h' : ¬ Ideal.cmp .oeq (t n) c = 1#1 := fun e => h ((cmp_oeq_eq_one _ _).1 e)
    rw [if_neg h', if_neg h]; simp

/-! ## The reference, read element by element -/

/-- The flat label array is the labels read through the flattening map. -/
theorem labels_flat (x1 : S32x1x768x1024.Idx → EReal) (n : S25165824.Idx) :
    val_main_v3 (F := Ideal) x1 n = x1 (flat n) := by
  rw [val_main_v3_apply, val_main_v2_apply]; rfl

/-- The flat logit array is the logits read through the flattening map. -/
theorem logits_flat (x0 : S32x1x768x1024.Idx → EReal) (n : S25165824.Idx) :
    val_main_v1 (F := Ideal) x0 n = x0 (flat n) := by
  rw [val_main_v1_apply, val_main_v0_apply]; rfl

/-- The first integer count, read as a float, is the number of elements labelled with the first constant. -/
theorem count_pos (x1 : S32x1x768x1024.Idx → EReal) (k : S_.Idx) :
    FloatOps.sitofp (F := Ideal) .f32 (val_main_v9 (F := Ideal) x1 k)
      = Cert.Spec.cnt (Ideal.ofBits .f32 0x3F800000#32) x1 := by
  have h8 : val_main_v8 (F := Ideal) x1
      = fun n => (Ideal.cmp .oeq (x1 (flat n)) (Ideal.ofBits .f32 0x3F800000#32)).setWidth 32 := by
    funext n
    rw [val_main_v8_apply, val_main_v5_apply, labels_flat, val_main_v4_apply, val_main_cst_apply]; rfl
  unfold val_main_v9
  rw [h8]
  exact (count_eq (fun n => x1 (flat n)) _ k).trans
    (sum_flat (fun j => if x1 j = Ideal.ofBits .f32 0x3F800000#32 then (1 : EReal) else 0))

/-- The second integer count, read as a float, is the number of elements labelled zero. -/
theorem count_neg (x1 : S32x1x768x1024.Idx → EReal) (k : S_.Idx) :
    FloatOps.sitofp (F := Ideal) .f32 (val_main_v12 (F := Ideal) x1 k) = Cert.Spec.cnt 0 x1 := by
  have h11 : val_main_v11 (F := Ideal) x1
      = fun n => (Ideal.cmp .oeq (x1 (flat n)) 0).setWidth 32 := by
    funext n
    rw [val_main_v11_apply, val_main_v7_apply, labels_flat, val_main_v6_apply, val_main_cst_0_apply,
      Ideal.ofBits_def, Ideal.ofBits_zero_f32]; rfl
  unfold val_main_v12
  rw [h11]
  exact (count_eq (fun n => x1 (flat n)) _ k).trans
    (sum_flat (fun j => if x1 j = 0 then (1 : EReal) else 0))

/-- One element of the reference's weighted loss, over variables. -/
theorem elem_eq (a b x t c₁ : EReal) :
    (if t = c₁ then a else if t = 0 then b else 0)
        * (max x 0 - x * t + Ideal.log1p (Ideal.exp (-max x (-x))))
      = (if t = c₁ then a else if t = 0 then b else 0) * Cert.Spec.bce x t := by
  unfold Cert.Spec.bce; rw [zero_sub]

/-- The reference's value is the class-weighted mean of the element losses. -/
theorem ref_eq (x0 x1 : S32x1x768x1024.Idx → EReal) :
    val_main_v30 (F := Ideal) x0 x1
      = fun _ => Cert.Spec.refVal (Ideal.ofBits .f32 0x3F800000#32) 0 (Ideal.ofBits .f32 0x4BC00000#32) x0 x1 := by
  funext i
  simp only [val_main_v30_apply, val_main_v29_apply, val_main_v28_apply, val_main_v18_apply, val_main_v17_apply,
    val_main_v27_apply, val_main_v26_apply, val_main_v25_apply, val_main_v24_apply, val_main_v23_apply,
    val_main_v22_apply, val_main_v21_apply, val_main_v20_apply, val_main_v19_apply,
    val_main_call1_v0_apply, val_main_call0_v2_apply, val_main_call0_v1_apply, val_main_call0_v0_apply,
    val_main_v16_apply, val_main_v15_apply, val_main_v14_apply, val_main_v13_apply, val_main_v10_apply,
    val_main_v7_apply, val_main_v6_apply, val_main_v5_apply, val_main_v4_apply,
    labels_flat, logits_flat,
    val_main_cst_apply, val_main_cst_0_apply, val_main_cst_2_apply, val_main_cst_3_apply, val_main_cst_4_apply,
    val_main_cst_5_apply, count_pos, count_neg,
    Ideal.hostDivf_def, Ideal.mulf_def, Ideal.addf_def, Ideal.subf_def, Ideal.maximumf_def, Ideal.hostAbsf_def,
    Ideal.absf_def, Ideal.hostNegf_def, Ideal.negf_def, Ideal.hostUnary_exp_def, Ideal.hostUnary_log1p_def,
    Ideal.ofBits_def, Ideal.ofBits_zero_f32, Ideal.cmpf_def, Cert.Spec.select_eq, zero_add]
  unfold Cert.Spec.refVal
  refine congrArg (fun s => Ideal.div s (Ideal.ofBits .f32 0x4BC00000#32)) ?_
  rw [← sum_flat (fun j => Cert.Spec.wt (Ideal.ofBits .f32 0x3F800000#32) 0 x1 j * Cert.Spec.bce (x0 j) (x1 j))]
  refine Finset.sum_congr rfl fun n _ => ?_
  unfold Cert.Spec.wt
  exact elem_eq _ _ _ _ _

end Cert.ReferenceIdeal.RefValue

end
-- ==== Proof.Algebra.lean ====
import proofs.«158789_j87651692577051_2_alg».proof.Proof.Spec

/-!
# Weights after the sums equal weights before the sum

For finite (real) logits and labels, every element loss is a real number and the two class counts are
natural numbers. If some element carries one of the two labels, the common denominator is a nonzero
real, both class weights are reals, and a real factor distributes over a finite sum of reals. If no
element carries either label, every masked term vanishes on both sides, whatever the weights are.
-/

noncomputable section

namespace Cert.Spec

open Idealize.ShloMosaic

variable {ι : Type*} [Fintype ι]

/-- The inclusion of the reals into the extended reals commutes with finite sums. -/
theorem coe_sum {α : Type*} (s : Finset α) (f : α → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The inclusion of the reals into the extended reals commutes with the maximum. -/
theorem coe_max (x y : ℝ) : ((max x y : ℝ) : EReal) = max (x : EReal) (y : EReal) :=
  EReal.coe_strictMono.monotone.map_max

/-- The loss of a real logit against a real label is a real number. -/
theorem bce_real (x t : ℝ) : ∃ r : ℝ, bce (x : EReal) (t : EReal) = (r : EReal) := by
  refine ⟨max x 0 - x * t + Real.log (1 + Real.exp (0 - max x (-x))), ?_⟩
  have hpos : ¬ (1 + Real.exp (0 - max x (-x)) ≤ 0) := not_le.mpr (by positivity)
  have e1 : (0 : EReal) - max (x : EReal) (-(x : EReal)) = ((0 - max x (-x) : ℝ) : EReal) := by
    rw [EReal.coe_sub, coe_max, EReal.coe_neg, EReal.coe_zero]
  have e2 : (1 : EReal) + ((Real.exp (0 - max x (-x)) : ℝ) : EReal)
      = ((1 + Real.exp (0 - max x (-x)) : ℝ) : EReal) := by
    rw [EReal.coe_add, EReal.coe_one]
  unfold bce Ideal.log1p
  rw [e1, Ideal.exp_coe, e2, Ideal.log_coe, if_neg hpos, EReal.coe_add, EReal.coe_sub, EReal.coe_mul,
    coe_max, EReal.coe_zero]

/-- A class count is a natural number: the number of elements carrying the label. -/
theorem cnt_nat (c : EReal) (T : ι → EReal) :
    cnt c T = (((Finset.univ.filter (fun j => T j = c)).card : ℝ) : EReal) := by
  have h : ∀ j, (if T j = c then (1 : EReal) else 0) = (((if T j = c then (1 : ℝ) else 0) : ℝ) : EReal) := by
    intro j
    split_ifs
    · exact EReal.coe_one.symm
    · exact EReal.coe_zero.symm
  unfold cnt
  rw [Finset.sum_congr rfl (fun j _ => h j), ← coe_sum, Finset.sum_boole]

/-- A real factor distributes over a finite sum of reals, read in the extended reals. -/
theorem mul_sum_real (w : ℝ) (f : ι → EReal) (hf : ∀ j, ∃ r : ℝ, f j = (r : EReal)) :
    (w : EReal) * ∑ j, f j = ∑ j, (w : EReal) * f j := by
  choose g hg using hf
  simp only [hg]
  rw [← coe_sum, ← EReal.coe_mul, Finset.mul_sum, coe_sum]
  simp only [EReal.coe_mul]

/-- A real weight moves inside a masked sum of real losses. -/
theorem mul_msum_real (w : ℝ) (c : EReal) (X T : ι → EReal)
    (hb : ∀ j, ∃ r : ℝ, bce (X j) (T j) = (r : EReal)) :
    (w : EReal) * msum c X T = ∑ j, if T j = c then (w : EReal) * bce (X j) (T j) else 0 := by
  unfold msum
  rw [mul_sum_real w]
  · refine Finset.sum_congr rfl (fun j _ => ?_)
    split_ifs
    · rfl
    · exact mul_zero _
  · intro j
    split_ifs
    · exact hb j
    · exact ⟨0, EReal.coe_zero.symm⟩

/-- With no element labelled `c`, the masked sum and every masked term vanish, whatever the weight. -/
theorem mul_msum_none (w c : EReal) (X T : ι → EReal) (h : ∀ j, T j ≠ c) :
    w * msum c X T = ∑ j, if T j = c then w * bce (X j) (T j) else 0 := by
  unfold msum
  rw [Finset.sum_congr rfl (fun j _ => if_neg (h j)), Finset.sum_congr rfl (fun j _ => if_neg (h j))]
  simp

/-- Two distinct labels: an element's weighted loss is the sum of its two masked weighted losses. -/
theorem wt_mul_split (c₁ c₀ : EReal) (hc : c₁ ≠ c₀) (T : ι → EReal) (j : ι) (b : EReal) :
    wt c₁ c₀ T j * b
      = (if T j = c₁ then Ideal.div (cnt c₀ T) (cnt c₁ T + cnt c₀ T) * b else 0)
        + (if T j = c₀ then Ideal.div (cnt c₁ T) (cnt c₁ T + cnt c₀ T) * b else 0) := by
  unfold wt
  by_cases h1 : T j = c₁
  · have h0 : T j ≠ c₀ := fun h => hc (h1.symm.trans h)
    rw [if_pos h1, if_pos h1, if_neg h0, add_zero]
  · by_cases h0 : T j = c₀
    · rw [if_neg h1, if_pos h0, if_neg h1, if_pos h0, zero_add]
    · rw [if_neg h1, if_neg h0, if_neg h1, if_neg h0, zero_mul, add_zero]

/-- The algebraic law: weighting the two masked sums equals summing the weighted elements. -/
theorem kernelVal_eq_refVal (c₁ c₀ d : EReal) (hc : c₁ ≠ c₀) (X T : ι → EReal)
    (hX : ∀ j, ∃ r : ℝ, X j = (r : EReal)) (hT : ∀ j, ∃ r : ℝ, T j = (r : EReal)) :
    kernelVal c₁ c₀ d X T = refVal c₁ c₀ d X T := by
  have hb : ∀ j, ∃ r : ℝ, bce (X j) (T j) = (r : EReal) := by
    intro j
    obtain ⟨x, hx⟩ := hX j
    obtain ⟨t, ht⟩ := hT j
    rw [hx, ht]
    exact bce_real x t
  unfold kernelVal refVal
  congr 1
  rw [Finset.sum_congr rfl (fun j _ => wt_mul_split c₁ c₀ hc T j (bce (X j) (T j))),
    Finset.sum_add_distrib]
  by_cases hE : ∃ j, T j = c₁ ∨ T j = c₀
  · -- some element is labelled: the denominator is a positive real, both weights are reals
    obtain ⟨j₀, hj₀⟩ := hE
    have hpos : (0 : ℝ) < ((Finset.univ.filter (fun j => T j = c₁)).card : ℝ)
        + ((Finset.univ.filter (fun j => T j = c₀)).card : ℝ) := by
      rcases hj₀ with h | h
      · have h' : 0 < (Finset.univ.filter (fun j => T j = c₁)).card :=
          Finset.card_pos.mpr ⟨j₀, Finset.mem_filter.mpr ⟨Finset.mem_univ _, h⟩⟩
        have : (0 : ℝ) < ((Finset.univ.filter (fun j => T j = c₁)).card : ℝ) := by exact_mod_cast h'
        positivity
      · have h' : 0 < (Finset.univ.filter (fun j => T j = c₀)).card :=
          Finset.card_pos.mpr ⟨j₀, Finset.mem_filter.mpr ⟨Finset.mem_univ _, h⟩⟩
        have : (0 : ℝ) < ((Finset.univ.filter (fun j => T j = c₀)).card : ℝ) := by exact_mod_cast h'
        positivity
    rw [cnt_nat c₁ T, cnt_nat c₀ T, ← EReal.coe_add, Ideal.div_coe hpos.ne', Ideal.div_coe hpos.ne',
      ← EReal.coe_mul, ← EReal.coe_mul, mul_msum_real _ c₁ X T hb, mul_msum_real _ c₀ X T hb]
  · -- no element is labelled: every masked term is zero on both sides
    have hE' : ∀ j, T j ≠ c₁ ∧ T j ≠ c₀ := fun j =>
      ⟨fun h => hE ⟨j, Or.inl h⟩, fun h => hE ⟨j, Or.inr h⟩⟩
    rw [mul_msum_none _ c₁ X T (fun j => (hE' j).1), mul_msum_none _ c₀ X T (fun j => (hE' j).2)]

end Cert.Spec

end
-- ==== Proof.Finite.lean ====
import proofs.«158789_j87651692577051_2_alg».proof.Pre_finite_inputs
import Idealize.ShloMosaic.PureOps.Ideal
import Idealize.ShloMosaic.Lib.ReduceAll
import Idealize.ShloMosaic.Lib.ValueIdx

/-!
# From the printed precondition to "every entry is a real"

The precondition is the conjunction of two `all`-reductions, one per argument array, of the element
test `|x| < +∞`. An extended real whose absolute value is strictly below `⊤` is neither `⊥` nor `⊤`
(both have absolute value `⊤`), hence is a real number.
-/

noncomputable section

namespace Cert.Spec

open Idealize.ShloMosaic

/-- The rank-0 shape has exactly one index. -/
instance : Subsingleton Cert.Pre_finite_inputs.S_.Idx := ⟨fun a b => funext fun d => d.elim0⟩

/-- An extended real whose absolute value compares strictly below the pattern of `+∞` is a real. -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The printed finiteness predicate being all ones makes every entry of both arrays a real. -/
theorem finite_of_pre [Cert.Pre_finite_inputs.Facts]
    (a0 a1 : FVec Ideal Cert.Pre_finite_inputs.S32x1x768x1024 .f32)
    (h : Cert.Pre_finite_inputs.fn (F := Ideal) a0 a1 = fun _ => 1#1) :
    (∀ j, ∃ r : ℝ, a0 j = (r : EReal)) ∧ (∀ j, ∃ r : ℝ, a1 j = (r : EReal)) := by
  have h0 := congrFun h ValueIdx.ix0
  dsimp only [Cert.Pre_finite_inputs.fn, andi] at h0
  obtain ⟨hA, hB⟩ := IntOp.andi_eq_one.1 h0
  refine ⟨fun j => real_of_abs_lt_inf (a0 j) ?_, fun j => real_of_abs_lt_inf (a1 j) ?_⟩
  · exact Host.reduce_andi_all _ _ _ _ _ hA j
  · exact Host.reduce_andi_all _ _ _ _ _ hB j

end Cert.Spec

end
-- ==== Proof.lean ====
/-
  A class-balanced binary cross-entropy over two f32[32, 1, 768, 1024] arrays, logits `X` and labels `T`.

  One element's loss is `bce x t = max x 0 - x·t + log (1 + exp (-|x|))`. With `P` the number of labels equal to
  1 and `Q` the number equal to 0, the reference weights each element — by `Q / (P + Q)` where the label is 1,
  by `P / (P + Q)` where it is 0, by 0 elsewhere — sums the weighted losses over the flattened arrays and divides
  by the number of elements. The kernel sweeps the arrays, reshaped to 24576 rows of 1024, in 24 blocks of 1024
  rows, twelve per core; each core keeps four running sums (the two counts and the two masked loss sums) and
  writes them to its own rows of four small output arrays; the host adds the two cores' rows, forms the two
  class weights, and computes `(Q/(P+Q)) · ∑[t = 1] bce + (P/(P+Q)) · ∑[t = 0] bce` over the same divisor.

  Over the extended reals both are the same function of `X` and `T`:
    * the reshape, the transpose with a unit channel axis and the blocking only rename indices, and a sum over a
      finite type does not depend on the names (Regroup.lean, RefValue.lean);
    * a running sum restarted every twelve points and read at points 11 and 23 adds up to the sum over all 24
      blocks (Accum.lean, Sweeps.lean, Final.lean), which the host tail reads at rows 0 and 8 (Tail.lean);
    * the reference's integer count of at most 25165824 ones does not wrap, so it is the kernel's float count;
    * a class weight is a real number unless `P + Q = 0`, and then no element carries either label, so every
      masked term vanishes on both sides; where it is real, `w · ∑ a = ∑ w · a` for real losses `a` — this is
      where the inputs' finiteness is used (Algebra.lean, Finite.lean).
  The ideal pass rewrote nothing, so `preserves` is `True`; the two kernel frames are the generated ones, and the
  reference's frame is its generated run with the result dropped.
-/
import proofs.«158789_j87651692577051_2_alg».proof.Defs
import proofs.«158789_j87651692577051_2_alg».proof.Proof.Gen.Kernel
import proofs.«158789_j87651692577051_2_alg».proof.Proof.Gen.Kernel.Skeleton
import proofs.«158789_j87651692577051_2_alg».proof.Proof.Gen.Kernel.Launch
import proofs.«158789_j87651692577051_2_alg».proof.Proof.Gen.Kernel.Points
import proofs.«158789_j87651692577051_2_alg».proof.Proof.Gen.Kernel.Frame
import proofs.«158789_j87651692577051_2_alg».proof.Proof.Gen.KernelIdeal
import proofs.«158789_j87651692577051_2_alg».proof.Proof.Gen.KernelIdeal.Skeleton
import proofs.«158789_j87651692577051_2_alg».proof.Proof.Gen.KernelIdeal.Launch
import proofs.«158789_j87651692577051_2_alg».proof.Proof.Gen.KernelIdeal.Points
import proofs.«158789_j87651692577051_2_alg».proof.Proof.Gen.KernelIdeal.Frame
import proofs.«158789_j87651692577051_2_alg».proof.Proof.Gen.ReferenceIdeal
import proofs.«158789_j87651692577051_2_alg».proof.Proof.Gen.ReferenceIdeal.Run
import proofs.«158789_j87651692577051_2_alg».proof.Proof.Gen.ReferenceIdeal.Read
import proofs.«158789_j87651692577051_2_alg».proof.Proof.Gen.Pre_finite_inputs
import proofs.«158789_j87651692577051_2_alg».proof.Proof.KernelRun
import proofs.«158789_j87651692577051_2_alg».proof.Proof.RefValue
import proofs.«158789_j87651692577051_2_alg».proof.Proof.Algebra
import proofs.«158789_j87651692577051_2_alg».proof.Proof.Finite
import Idealize.ShloMosaic.Adequacy
import Idealize.ShloMosaic.Init

noncomputable section

namespace Cert.Proof

open Idealize.ShloMosaic Idealize.SL.Sem

/-- The positive label, the bit pattern of 1.0, is not the negative label 0. -/
theorem one_ne_zero' : Ideal.ofBits .f32 0x3F800000#32 ≠ (0 : EReal) := by
  rw [show Ideal.ofBits .f32 0x3F800000#32 = 1 from IdealRules.sign_bit.ideal_onePat .f32]
  exact one_ne_zero

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the two arguments, the idealized kernel ends at "masked sums first, class weights
    after" and the idealized reference at "class weights first, one sum after" of the same arrays; under finite
    inputs the two are equal extended reals. -/
theorem algebraic : Cert.algebraic_KernelIdeal_ReferenceIdeal := by
  intro m ρ m' ρ' hpre hagree
  refine ⟨fun c _ => Cert.Spec.kernelVal (Ideal.ofBits .f32 0x3F800000#32) 0 (Ideal.ofBits .f32 0x4BC00000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun r h c => ⟨(h c).1.trans ?_, (h c).2⟩)
    (Cert.ReferenceIdeal.Value.run (F := Ideal) m' ρ')
  obtain ⟨hX, hT⟩ := Cert.Spec.finite_of_pre _ _ (hpre c)
  rw [Cert.ReferenceIdeal.Read.val_main_v30_eq, (hagree c).1, (hagree c).2, Cert.ReferenceIdeal.RefValue.ref_eq]
  funext _
  exact (Cert.Spec.kernelVal_eq_refVal _ 0 _ one_ne_zero' _ _ hX hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
